-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S4096x1000 : S_.BroadcastsInDim S4096x1000 (![] : Fin 0 → Fin S4096x1000.rank)
  reducesTo_S4096x1000_S_d0_1 : S4096x1000.ReducesTo [0, 1] S_
  h_S_ : 0 < S_.numel
  bcast_S_S1x1000 : S_.BroadcastsInDim S1x1000 (![] : Fin 0 → Fin S1x1000.rank)
  reducesTo_S1x1000_S_d0_1 : S1x1000.ReducesTo [0, 1] S_
  bcast_S_S1 : S_.BroadcastsInDim S1 (![] : Fin 0 → Fin S1.rank)
  reducesTo_S1_S_d0 : S1.ReducesTo [0] S_
  bcast_S_S1000x64 : S_.BroadcastsInDim S1000x64 (![] : Fin 0 → Fin S1000x64.rank)
  reducesTo_S1000x64_S_d0_1 : S1000x64.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S64 .f32) (main_arg8 : FVec F S1x64 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg8
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x64 .f32) (main_arg5 : FVec F S128 .f32) (main_arg6 : FVec F S64x128 .f32) (main_arg7 : FVec F S64 .f32) (main_arg8 : FVec F S1x64 .f32) (main_arg9 : FVec F S1 .f32) (main_v13 : IVec S_ 1) (main_v16 : IVec S1000x64 1) : IVec S_ 1 :=
  let main_c_5 : IVec S_ 1 := constantI S_ 1 1#1
  let main_v17 : IVec S_ 1 := (fun x v => Host.reduce IntOp.andi x v reducesTo_S1000x64_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg6
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S4096x1000 .f32) (main_arg1 : FVec F S1x1000 .f32) (main_arg2 : FVec F S1 .f32) (main_arg3 : FVec F S1000x64 .f32) (main_arg4 : FVec F S128x64 .f32) (main_arg5 : FVec F S128 .f32) (main_arg6 : FVec F S64x128 .f32) (main_arg7 : FVec F S64 .f32) (main_arg8 : FVec F S1x64 .f32) (main_arg9 : FVec F S1 .f32) : IVec S_ 1 :=
  let main_v0 : FVec F S4096x1000 .f32 := Host.absf main_arg0
  let main_cst : FVec F S_ .f32 := constant S_ .f32 0x7F800000#32
  let main_v1 : FVec F S4096x1000 .f32 := broadcastInDim S4096x1000 ![] bcast_S_S4096x1000 main_cst
  let main_v2 : IVec S4096x1000 1 := cmpf .olt main_v0 main_v1
  let main_c : IVec S_ 1 := constantI S_ 1 1#1
  let main_v3 : IVec S_ 1 := (fun x v => Host.reduce IntOp.andi x v reducesTo_S4096x1000_S_d0_1 h_S_) main_v2 main_c
  let main_v4 : FVec F S1x1000 .f32 := Host.absf main_arg1
  let main_cst_0 : FVec F S_ .f32 := constant S_ .f32 0x7F800000#32
  let main_v5 : FVec F S1x1000 .f32 := broadcastInDim S1x1000 ![] bcast_S_S1x1000 main_cst_0
  let main_v6 : IVec S1x1000 1 := cmpf .olt main_v4 main_v5
  let main_c_1 : IVec S_ 1 := constantI S_ 1 1#1
  let main_v7 : IVec S_ 1 := (fun x v => Host.reduce IntOp.andi x v reducesTo_S1x1000_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1000x64 .f32 := Host.absf main_arg3
  let main_cst_4 : FVec F S_ .f32 := constant S_ .f32 0x7F800000#32
  let main_v15 : FVec F S1000x64 .f32 := broadcastInDim S1000x64 ![] bcast_S_S1000x64 main_cst_4
  let main_v16 : IVec S1000x64 1 := cmpf .olt main_v14 main_v15
  fn_part1 (F := F) main_arg4 main_arg5 main_arg6 main_arg7 main_arg8 main_arg9 main_v13 main_v16
-- ==== Kernel.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S4096x1 : Shape := ⟨2, ![4096, 1]⟩
abbrev S512x1000 : Shape := ⟨2, ![512, 1000]⟩
abbrev S512x1 : Shape := ⟨2, ![512, 1]⟩
abbrev S1000 : Shape := ⟨1, ![1000]⟩
abbrev S1000x1 : Shape := ⟨2, ![1000, 1]⟩
abbrev S1000x66 : Shape := ⟨2, ![1000, 66]⟩
abbrev S512x66 : Shape := ⟨2, ![512, 66]⟩
abbrev S512x64 : Shape := ⟨2, ![512, 64]⟩
abbrev S512x128 : Shape := ⟨2, ![512, 128]⟩
abbrev S1x128 : Shape := ⟨2, ![1, 128]⟩
abbrev S1x1 : Shape := ⟨2, ![1, 1]⟩
abbrev S4096 : Shape := ⟨1, ![4096]⟩

abbrev nBuf : Space → Nat
  | .hbm => 12
  | .vmem => 13
  | .smem => 0
  | _ => 0

abbrev bufTy : (tb : Table) → Fin (tcTables nBuf tb) → BufTy
  | .hbm, ⟨0, _⟩ => ⟨S4096x1000, .f32⟩
  | .hbm, ⟨1, _⟩ => ⟨S1x1000, .f32⟩
  | .hbm, ⟨2, _⟩ => ⟨S1, .f32⟩
  | .hbm, ⟨3, _⟩ => ⟨S1000x64, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S4096x1, .f32⟩
  | .hbm, ⟨11, _⟩ => ⟨S4096, .f32⟩
  | .local _ .vmem, ⟨0, _⟩ => ⟨S512x1000, .f32⟩
  | .local _ .vmem, ⟨1, _⟩ => ⟨S512x1000, .f32⟩
  | .local _ .vmem, ⟨2, _⟩ => ⟨S1000x64, .f32⟩
  | .local _ .vmem, ⟨3, _⟩ => ⟨S1x1000, .f32⟩
  | .local _ .vmem, ⟨4, _⟩ => ⟨S1, .f32⟩
  | .local _ .vmem, ⟨5, _⟩ => ⟨S128x64, .f32⟩
  | .local _ .vmem, ⟨6, _⟩ => ⟨S128, .f32⟩
  | .local _ .vmem, ⟨7, _⟩ => ⟨S64x128, .f32⟩
  | .local _ .vmem, ⟨8, _⟩ => ⟨S64, .f32⟩
  | .local _ .vmem, ⟨9, _⟩ => ⟨S1x64, .f32⟩
  | .local _ .vmem, ⟨10, _⟩ => ⟨S1, .f32⟩
  | .local _ .vmem, ⟨11, _⟩ => ⟨S512x1, .f32⟩
  | .local _ .vmem, ⟨12, _⟩ => ⟨S512x1, .f32⟩
  | _, _ => ⟨S4096x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S1000x64_S1000x64_0_0 : ∀ a, (![0, 0] : Fin 2 → Nat) a + S1000x64.size a ≤ S1000x64.size a
  h_S1000x64 : 0 < S1000x64.numel
  reduces_S1000x64_S1000 : S1000x64.Reduces [1] S1000
  shapeCasts_S1000_S1000x1 : S1000.ShapeCasts S1000x1
  inb_S1x1000_S1x1000_0_0 : ∀ a, (![0, 0] : Fin 2 → Nat) a + S1x1000.size a ≤ S1x1000.size a
  h_S1x1000 : 0 < S1x1000.numel
  transposes_S1x1000_p1_0_S1000x1 : S1x1000.Transposes [1, 0] S1000x1
  concatenates_S1000x64_S1000x1_S1000x1_S1000x66_d1 : Shape.Concatenates [S1000x64, S1000x1, S1000x1] S1000x66 1
  inb_S512x1000_S512x1000_0_0 : ∀ a, (![0, 0] : Fin 2 → Nat) a + S512x1000.size a ≤ S512x1000.size a
  h_S512x1000 : 0 < S512x1000.numel
  slices_S512x66_o0_0_S512x64 : S512x66.Slices ![0, 0] S512x64
  slices_S512x66_o0_64_S512x1 : S512x66.Slices ![0, 64] S512x1
  slices_S512x66_o0_65_S512x1 : S512x66.Slices ![0, 65] S512x1
  inb_S128x64_S128x64_0_0 : ∀ a, (![0, 0] : Fin 2 → Nat) a + S128x64.size a ≤ S128x64.size a
  h_S128x64 : 0 < S128x64.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S1x64_S1x64_0_0 : ∀ a, (![0, 0] : Fin 2 → Nat) a + S1x64.size a ≤ S1x64.size a
  h_S1x64 : 0 < S1x64.numel
  inb_S1_S1_0 : ∀ a, (![0] : Fin 1 → Nat) a + S1.size a ≤ S1.size a
  h_S1 : 0 < S1.numel
  shapeCasts_S1_S1x1 : S1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  shapeCasts_S4096x1_S4096 : S4096x1.ShapeCasts S4096
  dot_S512x1000_S1000x66_S512x66_1_0_0_1_n_n_wf : DotDims.WF S512x1000 S1000x66 S512x66 [1] [0] [0] [1] [] []
  dot_S512x1000_S1000x1_S512x1_1_0_0_1_n_n_wf : DotDims.WF S512x1000 S1000x1 S512x1 [1] [0] [0] [1] [] []
  dot_S512x64_S128x64_S512x128_1_1_0_0_n_n_wf : DotDims.WF S512x64 S128x64 S512x128 [1] [1] [0] [0] [] []
  dot_S512x128_S64x128_S512x64_1_1_0_0_n_n_wf : DotDims.WF S512x128 S64x128 S512x64 [1] [1] [0] [0] [] []
  dot_S512x64_S1x64_S512x1_1_1_0_0_n_n_wf : DotDims.WF S512x64 S1x64 S512x1 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S4096x1000.size a
  hwx0_0 : ∀ i : grid0.Coords, EltTy.bits .f32 = 32 ∨ (Rect.block (s := S4096x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x64.size a ≤ S1000x64.size a
  hwx0_1 : ∀ i : grid0.Coords, EltTy.bits .f32 = 32 ∨ (Rect.block (s := S1000x64) S1000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1.size a ≤ S1.size a
  hwx0_9 : ∀ i : grid0.Coords, EltTy.bits .f32 = 32 ∨ (Rect.block (s := S1) S1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x1.size a ≤ S4096x1.size a
  hwx0_10 : ∀ i : grid0.Coords, EltTy.bits .f32 = 32 ∨ (Rect.block (s := S4096x1) S512x1.size (cc0_transform_10 i) (hinb0_10 i)).WholeWords (EltTy.packing .f32)

variable [Facts₀]

def dot_S512x1000_S1000x66_S512x66_1_0_0_1_n_n : DotDims S512x1000 S1000x66 S512x66 where
  lhsContracting := [1]
  rhsContracting := [0]
  lhsNonContracting := [0]
  rhsNonContracting := [1]
  lhsBatch := []
  rhsBatch := []
  wf := dot_S512x1000_S1000x66_S512x66_1_0_0_1_n_n_wf
def dot_S512x1000_S1000x1_S512x1_1_0_0_1_n_n : DotDims S512x1000 S1000x1 S512x1 where
  lhsContracting := [1]
  rhsContracting := [0]
  lhsNonContracting := [0]
  rhsNonContracting := [1]
  lhsBatch := []
  rhsBatch := []
  wf := dot_S512x1000_S1000x1_S512x1_1_0_0_1_n_n_wf
def dot_S512x64_S128x64_S512x128_1_1_0_0_n_n : DotDims S512x64 S128x64 S512x128 where
  lhsContracting := [1]
  rhsContracting := [1]
  lhsNonContracting := [0]
  rhsNonContracting := [0]
  lhsBatch := []
  rhsBatch := []
  wf := dot_S512x64_S128x64_S512x128_1_1_0_0_n_n_wf
def dot_S512x128_S64x128_S512x64_1_1_0_0_n_n : DotDims S512x128 S64x128 S512x64 where
  lhsContracting := [1]
  rhsContracting := [1]
  lhsNonContracting := [0]
  rhsNonContracting := [0]
  lhsBatch := []
  rhsBatch := []
  wf := dot_S512x128_S64x128_S512x64_1_1_0_0_n_n_wf
def dot_S512x64_S1x64_S512x1_1_1_0_0_n_n : DotDims S512x64 S1x64 S512x1 where
  lhsContracting := [1]
  rhsContracting := [1]
  lhsNonContracting := [0]
  rhsNonContracting := [0]
  lhsBatch := []
  rhsBatch := []
  wf := dot_S512x64_S1x64_S512x1_1_1_0_0_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v0) S512x1.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1000 : Shape := ⟨2, ![4096, 1000]⟩
abbrev S1x1000 : Shape := ⟨2, ![1, 1000]⟩
abbrev S1 : Shape := ⟨1, ![1]⟩
abbrev S1000x64 : Shape := ⟨2, ![1000, 64]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x64 : Shape := ⟨2, ![1, 64]⟩
abbrev S1000x1 : Shape := ⟨2, ![1000, 1]⟩
abbrev S4096x1 : Shape := ⟨2, ![4096, 1]⟩
abbrev S1x1 : Shape := ⟨2, ![1, 1]⟩
abbrev S4096x64 : Shape := ⟨2, ![4096, 64]⟩
abbrev S_ : Shape := ⟨0, ![]⟩
abbrev S4096 : Shape := ⟨1, ![4096]⟩
abbrev S4096x128 : Shape := ⟨2, ![4096, 128]⟩
abbrev S1x128 : Shape := ⟨2, ![1, 128]⟩
abbrev S64x1 : Shape := ⟨2, ![64, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x1000, .f32⟩
  | .hbm, ⟨1, _⟩ => ⟨S1x1000, .f32⟩
  | .hbm, ⟨2, _⟩ => ⟨S1, .f32⟩
  | .hbm, ⟨3, _⟩ => ⟨S1000x64, .f32⟩
  | .hbm, ⟨4, _⟩ => ⟨S128x64, .f32⟩
  | .hbm, ⟨5, _⟩ => ⟨S128, .f32⟩
  | .hbm, ⟨6, _⟩ => ⟨S64x128, .f32⟩
  | .hbm, ⟨7, _⟩ => ⟨S64, .f32⟩
  | .hbm, ⟨8, _⟩ => ⟨S1x64, .f32⟩
  | .hbm, ⟨9, _⟩ => ⟨S1, .f32⟩
  | .hbm, ⟨10, _⟩ => ⟨S1000x1, .f32⟩
  | .hbm, ⟨11, _⟩ => ⟨S4096x1, .f32⟩
  | .hbm, ⟨12, _⟩ => ⟨S1x1, .f32⟩
  | .hbm, ⟨13, _⟩ => ⟨S4096x1, .f32⟩
  | .hbm, ⟨14, _⟩ => ⟨S4096x1, .f32⟩
  | .hbm, ⟨15, _⟩ => ⟨S4096x64, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1000, .f32⟩
  | .hbm, ⟨20, _⟩ => ⟨S1000x64, .f32⟩
  | .hbm, ⟨21, _⟩ => ⟨S4096x64, .f32⟩
  | .hbm, ⟨22, _⟩ => ⟨S_, .f32⟩
  | .hbm, ⟨23, _⟩ => ⟨S4096, .f32⟩
  | .hbm, ⟨24, _⟩ => ⟨S64x128, .f32⟩
  | .hbm, ⟨25, _⟩ => ⟨S4096x128, .f32⟩
  | .hbm, ⟨26, _⟩ => ⟨S1x128, .f32⟩
  | .hbm, ⟨27, _⟩ => ⟨S4096x128, .f32⟩
  | .hbm, ⟨28, _⟩ => ⟨S4096x128, .f32⟩
  | .hbm, ⟨29, _⟩ => ⟨S_, .f32⟩
  | .hbm, ⟨30, _⟩ => ⟨S4096x128, .f32⟩
  | .hbm, ⟨31, _⟩ => ⟨S4096x128, .f32⟩
  | .hbm, ⟨32, _⟩ => ⟨S128x64, .f32⟩
  | .hbm, ⟨33, _⟩ => ⟨S4096x64, .f32⟩
  | .hbm, ⟨34, _⟩ => ⟨S1x64, .f32⟩
  | .hbm, ⟨35, _⟩ => ⟨S4096x64, .f32⟩
  | .hbm, ⟨36, _⟩ => ⟨S4096x64, .f32⟩
  | .hbm, ⟨37, _⟩ => ⟨S_, .f32⟩
  | .hbm, ⟨38, _⟩ => ⟨S4096x64, .f32⟩
  | .hbm, ⟨39, _⟩ => ⟨S4096x64, .f32⟩
  | .hbm, ⟨40, _⟩ => ⟨S64x1, .f32⟩
  | .hbm, ⟨41, _⟩ => ⟨S4096x1, .f32⟩
  | .hbm, ⟨42, _⟩ => ⟨S1x1, .f32⟩
  | .hbm, ⟨43, _⟩ => ⟨S4096x1, .f32⟩
  | .hbm, ⟨44, _⟩ => ⟨S4096x1, .f32⟩
  | .hbm, ⟨45, _⟩ => ⟨S4096, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096x1, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096, .f32⟩
  | _, _ => ⟨S4096x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_2 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_cst_4 : Ref sig .tc := ⟨.hbm, 60, rfl⟩
abbrev main_v41 : Ref sig .tc := ⟨.hbm, 61, rfl⟩
abbrev main_v42 : Ref sig .tc := ⟨.hbm, 62, rfl⟩
abbrev main_cst_5 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  transposes_S1x1000_S1000x1_1_0 : S1x1000.Transposes [1, 0] S1000x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x64_S4096_d1 : S4096x64.ReducesTo [1] S4096
  h_S_ : 0 < S_.numel
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  transposes_S1x64_S64x1_1_0 : S1x64.Transposes [1, 0] S64x1
  bcast_S4096_S4096x1_0 : S4096.BroadcastsInDim S4096x1 (![0] : Fin 1 → Fin S4096x1.rank)
  bcast_S_S4096x1 : S_.BroadcastsInDim S4096x1 (![] : Fin 0 → Fin S4096x1.rank)
  shapeCasts_S4096x1_S4096 : S4096x1.ShapeCasts S4096
  dot_S4096x1000_S1000x1_S4096x1_1_0_0_1_n_n_wf : DotDims.WF S4096x1000 S1000x1 S4096x1 [1] [0] [0] [1] [] []
  dot_S4096x1000_S1000x64_S4096x64_1_0_0_1_n_n_wf : DotDims.WF S4096x1000 S1000x64 S4096x64 [1] [0] [0] [1] [] []
  dot_S4096x64_S64x128_S4096x128_1_0_0_1_n_n_wf : DotDims.WF S4096x64 S64x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def dot_S4096x1000_S1000x1_S4096x1_1_0_0_1_n_n : DotDims S4096x1000 S1000x1 S4096x1 where
  lhsContracting := [1]
  rhsContracting := [0]
  lhsNonContracting := [0]
  rhsNonContracting := [1]
  lhsBatch := []
  rhsBatch := []
  wf := dot_S4096x1000_S1000x1_S4096x1_1_0_0_1_n_n_wf
def dot_S4096x1000_S1000x64_S4096x64_1_0_0_1_n_n : DotDims S4096x1000 S1000x64 S4096x64 where
  lhsContracting := [1]
  rhsContracting := [0]
  lhsNonContracting := [0]
  rhsNonContracting := [1]
  lhsBatch := []
  rhsBatch := []
  wf := dot_S4096x1000_S1000x64_S4096x64_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibConcatCols.lean ====
/-
  A matrix extended by two extra columns, read at an entry.

  Three blocks with the same number of rows, of widths b, 1 and 1, joined along the column axis give a matrix of
  width b + 2. An entry in one of the first b columns is the first block's entry at the same place; column b is the
  second block's single column; column b + 1 is the third block's. Stated for any extents: the joined width c is
  whatever the join's side condition makes it, and the column is located by its value.
-/
import Idealize.ShloMosaic.Lib.Pipeline.Value
import Idealize.ShloMosaic.Lib.ValueIdx

namespace ConcatCols

open Idealize.ShloMosaic Idealize.ShloMosaic.ValueIdx

variable {α : Type}

/-- An entry among the first b columns is the wide block's entry. -/
theorem wide_apply {a b c : ℕ} (x : (⟨2, ![a, b]⟩ : Shape).Idx → α) (u v : (⟨2, ![a, 1]⟩ : Shape).Idx → α)
    (h : Shape.Concatenates [⟨2, ![a, b]⟩, ⟨2, ![a, 1]⟩, ⟨2, ![a, 1]⟩] ⟨2, ![a, c]⟩ 1)
    (n : Fin a) (q : Fin c) (e : Fin b) (hq : q.val = e.val) :
    concatenate ⟨2, ![a, c]⟩ 1 [⟨⟨2, ![a, b]⟩, x⟩, ⟨⟨2, ![a, 1]⟩, u⟩, ⟨⟨2, ![a, 1]⟩, v⟩] h (ix2 n q) = x (ix2 n e) := by
  refine concatenate_apply_piece (t := ⟨2, ![a, c]⟩) (1 : Fin 2) ([⟨⟨2, ![a, b]⟩, x⟩, ⟨⟨2, ![a, 1]⟩, u⟩, ⟨⟨2, ![a, 1]⟩, v⟩] : List ((s : Shape) × (s.Idx → α))) h (ix2 n q) 0
    (by show 0 < 3; omega) ⟨2, ![a, b]⟩ x rfl rfl 0 rfl (ix2 n e)
    (fun d => ?_) ?_
  · match d with
    | ⟨0, _⟩ => exact fun _ => rfl
    | ⟨1, _⟩ => exact fun hd => absurd rfl hd
  · show 0 + e.val = q.val
    omega

/-- Column b is the first narrow block's column. -/
theorem first_extra_apply {a b c : ℕ} (x : (⟨2, ![a, b]⟩ : Shape).Idx → α) (u v : (⟨2, ![a, 1]⟩ : Shape).Idx → α)
    (h : Shape.Concatenates [⟨2, ![a, b]⟩, ⟨2, ![a, 1]⟩, ⟨2, ![a, 1]⟩] ⟨2, ![a, c]⟩ 1)
    (n : Fin a) (q : Fin c) (hq : q.val = b) :
    concatenate ⟨2, ![a, c]⟩ 1 [⟨⟨2, ![a, b]⟩, x⟩, ⟨⟨2, ![a, 1]⟩, u⟩, ⟨⟨2, ![a, 1]⟩, v⟩] h (ix2 n q)
      = u (ix2 n (0 : Fin 1)) := by
  refine concatenate_apply_piece (t := ⟨2, ![a, c]⟩) (1 : Fin 2) ([⟨⟨2, ![a, b]⟩, x⟩, ⟨⟨2, ![a, 1]⟩, u⟩, ⟨⟨2, ![a, 1]⟩, v⟩] : List ((s : Shape) × (s.Idx → α))) h (ix2 n q) 1
    (by show 1 < 3; omega) ⟨2, ![a, 1]⟩ u rfl rfl b rfl
    (ix2 n (0 : Fin 1)) (fun d => ?_) ?_
  · match d with
    | ⟨0, _⟩ => exact fun _ => rfl
    | ⟨1, _⟩ => exact fun hd => absurd rfl hd
  · show b + 0 = q.val
    omega

/-- Column b + 1 is the second narrow block's column. -/
theorem second_extra_apply {a b c : ℕ} (x : (⟨2, ![a, b]⟩ : Shape).Idx → α) (u v : (⟨2, ![a, 1]⟩ : Shape).Idx → α)
    (h : Shape.Concatenates [⟨2, ![a, b]⟩, ⟨2, ![a, 1]⟩, ⟨2, ![a, 1]⟩] ⟨2, ![a, c]⟩ 1)
    (n : Fin a) (q : Fin c) (hq : q.val = b + 1) :
    concatenate ⟨2, ![a, c]⟩ 1 [⟨⟨2, ![a, b]⟩, x⟩, ⟨⟨2, ![a, 1]⟩, u⟩, ⟨⟨2, ![a, 1]⟩, v⟩] h (ix2 n q)
      = v (ix2 n (0 : Fin 1)) := by
  refine concatenate_apply_piece (t := ⟨2, ![a, c]⟩) (1 : Fin 2) ([⟨⟨2, ![a, b]⟩, x⟩, ⟨⟨2, ![a, 1]⟩, u⟩, ⟨⟨2, ![a, 1]⟩, v⟩] : List ((s : Shape) × (s.Idx → α))) h (ix2 n q) 2
    (by show 2 < 3; omega) ⟨2, ![a, 1]⟩ v rfl rfl (b + 1) rfl
    (ix2 n (0 : Fin 1)) (fun d => ?_) ?_
  · match d with
    | ⟨0, _⟩ => exact fun _ => rfl
    | ⟨1, _⟩ => exact fun hd => absurd rfl hd
  · show b + 1 + 0 = q.val
    omega

end ConcatCols
-- ==== Proof.TileWide.lean ====
/-
  The first stage of one tile: the wide product and the sum of squares.

  A tile holds 512 samples x (each a row of 1000 features). The embedding table f (1000 rows of 64) is extended on
  the right by two columns: the linear weights (a [1, 1000] row, transposed) and the table's row sums Σ_e f_{n,e}.
  One product of the tile with this [1000, 66] matrix then yields, per sample,
    • columns 0 … 63: the embedding Σ_n x_n f_{n,e};
    • column 64: the linear term Σ_n x_n wl_n;
    • column 65: Σ_n x_n (Σ_e f_{n,e}), the sum of the embedding's coordinates with the row sums taken first.
  A second product, of the squared tile with the column of row sums of squares, gives Σ_n x_n² (Σ_e f_{n,e}²).
  Each is read here at an entry, on the extended reals, as the sum it is.
-/
import proofs.«175416_g84026740179138_cont_9to1c4b_688_3_alg».proof.Proof.Gen.KernelIdeal.Skeleton
import proofs.«175416_g84026740179138_cont_9to1c4b_688_3_alg».proof.Proof.LibKeepdims
import proofs.«175416_g84026740179138_cont_9to1c4b_688_3_alg».proof.Proof.LibPlainDot
import proofs.«175416_g84026740179138_cont_9to1c4b_688_3_alg».proof.Proof.LibConcatCols
import Idealize.ShloMosaic.Lib.ValueLayout
import Idealize.ShloMosaic.PureOps.Ideal.Laws

noncomputable section

namespace Cert.KernelIdeal.Tile

open Idealize.ShloMosaic Idealize.ShloMosaic.ValueIdx Cert.KernelIdeal Cert.KernelIdeal.Gen

/-- The embedding table extended by the linear weights as a column and by its own row sums as a column. -/
def wideRhs (v0 : Vec Ideal S1000x64 .f32) (v6 : Vec Ideal S1x1000 .f32) : FVec Ideal S1000x66 .f32 :=
  concatenate S1000x66 1
    [⟨S1000x64, v0⟩, ⟨S1000x1, transpose S1000x1 [1, 0] v6 transposes_S1x1000_p1_0_S1000x1⟩,
      ⟨S1000x1, shapeCast S1000x1
        (multiReduction (F := Ideal) .add [1] S1000 v0 0x00000000#32 reduces_S1000x64_S1000 (.inl rfl) rfl)
        shapeCasts_S1000_S1000x1⟩]
    concatenates_S1000x64_S1000x1_S1000x1_S1000x66_d1

/-- Its first 64 columns are the table. -/
theorem wideRhs_table (v0 : Vec Ideal S1000x64 .f32) (v6 : Vec Ideal S1x1000 .f32) (n : Fin 1000) (e : Fin 64) (q : Fin 66)
    (hq : q.val = e.val) : wideRhs v0 v6 (ix2 n q) = v0 (ix2 n e) :=
  ConcatCols.wide_apply v0 _ _ concatenates_S1000x64_S1000x1_S1000x1_S1000x66_d1 n q e hq

/-- Column 64 is the linear weights. -/
theorem wideRhs_linear (v0 : Vec Ideal S1000x64 .f32) (v6 : Vec Ideal S1x1000 .f32) (n : Fin 1000) (q : Fin 66)
    (hq : q.val = 64) : wideRhs v0 v6 (ix2 n q) = v6 (ix2 (0 : Fin 1) n) :=
  (ConcatCols.first_extra_apply v0 _ _ concatenates_S1000x64_S1000x1_S1000x1_S1000x66_d1 n q hq).trans
    (transpose_ix2_apply v6 transposes_S1x1000_p1_0_S1000x1 n (0 : Fin 1))

/-- Column 65 is the table's row sums. -/
theorem wideRhs_rowsum (v0 : Vec Ideal S1000x64 .f32) (v6 : Vec Ideal S1x1000 .f32) (n : Fin 1000) (q : Fin 66)
    (hq : q.val = 65) : wideRhs v0 v6 (ix2 n q) = ∑ e : Fin 64, v0 (ix2 n e) :=
  (ConcatCols.second_extra_apply v0 _ _ concatenates_S1000x64_S1000x1_S1000x1_S1000x66_d1 n q hq).trans
    ((Keepdims.shapeCast_a_a1_apply _ shapeCasts_S1000_S1000x1 n (0 : Fin 1)).trans
      (Keepdims.laneSum_apply v0 reduces_S1000x64_S1000 (.inl rfl) rfl n))

/-- The wide product at an entry: the sample against a column of the extended table. -/
theorem wide_apply (v0 : Vec Ideal S1000x64 .f32) (v6 : Vec Ideal S1x1000 .f32) (v9 : Vec Ideal S512x1000 .f32)
    (p : Fin 512) (q : Fin 66) :
    k0_pay2 (F := Ideal) v0 v6 v9 (ix2 p q) = ∑ n : Fin 1000, v9 (ix2 p n) * wideRhs v0 v6 (ix2 n q) :=
  Cert.PlainDot.matmul_zero_apply (M := 512) (K := 1000) (N := 66) none v9 (wideRhs v0 v6) p q

/-- Columns 0 … 63 of the wide product: the sample's embedding. -/
theorem embedding_apply (v0 : Vec Ideal S1000x64 .f32) (v6 : Vec Ideal S1x1000 .f32) (v9 : Vec Ideal S512x1000 .f32)
    (p : Fin 512) (e : Fin 64) :
    extractStridedSlice S512x64 ![0, 0] (k0_pay2 (F := Ideal) v0 v6 v9) slices_S512x66_o0_0_S512x64 (ix2 p e)
      = ∑ n : Fin 1000, v9 (ix2 p n) * v0 (ix2 n e) :=
  (slice2_axis1_apply 0 (k0_pay2 (F := Ideal) v0 v6 v9) slices_S512x66_o0_0_S512x64 p e
      ⟨e.val, by have := e.isLt; omega⟩ (Nat.zero_add _).symm).trans
    ((wide_apply v0 v6 v9 p _).trans
      (Finset.sum_congr rfl fun n _ => congrArg (v9 (ix2 p n) * ·) (wideRhs_table v0 v6 n e _ rfl)))

/-- Column 64 of the wide product: the linear term. -/
theorem linear_apply (v0 : Vec Ideal S1000x64 .f32) (v6 : Vec Ideal S1x1000 .f32) (v9 : Vec Ideal S512x1000 .f32)
    (p : Fin 512) (z : Fin 1) :
    k0_pay3 (F := Ideal) v0 v6 v9 (ix2 p z) = ∑ n : Fin 1000, v9 (ix2 p n) * v6 (ix2 (0 : Fin 1) n) :=
  (slice2_axis1_apply 64 (k0_pay2 (F := Ideal) v0 v6 v9) slices_S512x66_o0_64_S512x1 p z
      ⟨64, by decide⟩ (by have := z.isLt; show 64 = 64 + z.val; omega)).trans
    ((wide_apply v0 v6 v9 p _).trans
      (Finset.sum_congr rfl fun n _ => congrArg (v9 (ix2 p n) * ·) (wideRhs_linear v0 v6 n _ rfl)))

/-- Column 65 of the wide product: the sample against the table's row sums. -/
theorem rowsum_apply (v0 : Vec Ideal S1000x64 .f32) (v6 : Vec Ideal S1x1000 .f32) (v9 : Vec Ideal S512x1000 .f32)
    (p : Fin 512) (z : Fin 1) :
    k0_pay4 (F := Ideal) v0 v6 v9 (ix2 p z) = ∑ n : Fin 1000, v9 (ix2 p n) * ∑ e : Fin 64, v0 (ix2 n e) :=
  (slice2_axis1_apply 65 (k0_pay2 (F := Ideal) v0 v6 v9) slices_S512x66_o0_65_S512x1 p z
      ⟨65, by decide⟩ (by have := z.isLt; show 65 = 65 + z.val; omega)).trans
    ((wide_apply v0 v6 v9 p _).trans
      (Finset.sum_congr rfl fun n _ => congrArg (v9 (ix2 p n) * ·) (wideRhs_rowsum v0 v6 n _ rfl)))

/-- The squared sample against the row sums of the squared table. -/
theorem squares_apply (v0 : Vec Ideal S1000x64 .f32) (v9 : Vec Ideal S512x1000 .f32) (p : Fin 512) (z : Fin 1) :
    k0_pay5 (F := Ideal) v0 v9 (ix2 p z)
      = ∑ n : Fin 1000, (v9 (ix2 p n) * v9 (ix2 p n)) * ∑ e : Fin 64, v0 (ix2 n e) * v0 (ix2 n e) :=
  (Cert.PlainDot.matmul_zero_apply (M := 512) (K := 1000) (N := 1) none (mulf (F := Ideal) v9 v9)
      (shapeCast S1000x1
        (multiReduction (F := Ideal) .add [1] S1000 (mulf (F := Ideal) v0 v0) 0x00000000#32 reduces_S1000x64_S1000 (.inl rfl) rfl)
        shapeCasts_S1000_S1000x1) p z).trans
    (Finset.sum_congr rfl fun n _ => congrArg ((v9 (ix2 p n) * v9 (ix2 p n)) * ·)
      ((Keepdims.shapeCast_a_a1_apply _ shapeCasts_S1000_S1000x1 n z).trans
        (Keepdims.laneSum_apply (mulf (F := Ideal) v0 v0) reduces_S1000x64_S1000 (.inl rfl) rfl n)))

end Cert.KernelIdeal.Tile

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibRowsDot.lean ====
/-
  A dense layer's two ingredients, read at an entry.

  A dense layer h ↦ h · Wᵀ + b with the weights stored output-coordinate first is, in a kernel, a product whose right
  operand is contracted along its ROWS, started from the zero accumulator, plus the bias vector made a one-row matrix
  and spread over the rows. Read on the extended reals at (p, q): the product is Σ_k lhs (p, k) · rhs (q, k), and the
  spread bias is the bias at q. Both for any extents.
-/
import proofs.«175416_g84026740179138_cont_9to1c4b_688_3_alg».proof.Proof.LibTransDot
import Idealize.ShloMosaic.Lib.ValueLayout
import Idealize.ShloMosaic.PureOps.Ideal.Laws

noncomputable section

namespace RowsDot

open Idealize.ShloMosaic Idealize.ShloMosaic.ValueIdx

/-- A product whose right operand is contracted along its rows, into the zero accumulator, at an entry. -/
theorem rowsDot_apply {M K N : ℕ} (lhs : FVec Ideal ⟨2, ![M, K]⟩ .f32) (rhs : FVec Ideal ⟨2, ![N, K]⟩ .f32)
    (p : Fin M) (q : Fin N) :
    FloatOps.matmul (DotDims.transposedRhs M K N) none lhs rhs (constant ⟨2, ![M, N]⟩ .f32 0x00000000#32) (ix2 p q)
      = ∑ k : Fin K, lhs (ix2 p k) * rhs (ix2 q k) :=
  (Ideal.matmul_constant_zero_apply (DotDims.transposedRhs M K N) none lhs rhs (ix2 p q)).trans
    (Cert.TransDot.contraction_eq lhs rhs p q)

/-- A bias vector made a [1, C] row and spread over M rows reads, at (p, j), the vector at j. -/
theorem biasRow_apply {α : Type} {M C : ℕ} (b : (⟨1, ![C]⟩ : Shape).Idx → α)
    (h1 : (⟨1, ![C]⟩ : Shape).ShapeCasts ⟨2, ![1, C]⟩) (h2 : (⟨2, ![1, C]⟩ : Shape).Broadcasts ⟨2, ![M, C]⟩)
    (p : Fin M) (j : Fin C) :
    broadcastTo ⟨2, ![M, C]⟩ (shapeCast ⟨2, ![1, C]⟩ b h1) h2 (ix2 p j) = b (ix1 j) :=
  (broadcastTo_1b_ab_apply _ h2 p j).trans (shapeCast_a_1a_apply b h1 (0 : Fin 1) j)

end RowsDot

end
-- ==== Proof.LibRealEntries.lean ====
/-
  Real (finite) entries among the extended reals.

  An extended real is *real* when it is the image of a real number. Real entries are closed under addition,
  multiplication, maximum and finite sums; the reciprocal square root of a real number that is at least one is
  real. On real entries multiplication distributes over addition, which fails in general on the extended reals
  (at infinities of opposite sign); this gives the identity

      max ((a + b) · w + 2 β, 0) = max ((a · w + β) + (b · w + β), 0)

  for rows a, b, a column w and a bias β, all real, where (u · w) is the finite sum of the products u k * w k.
-/
import Mathlib
import Idealize.ShloMosaic.PureOps.Ideal

namespace RealEntries

open Idealize.ShloMosaic

/-- An extended real that is the image of a real number. -/
def IsReal (x : EReal) : Prop := ∃ r : ℝ, x = (r : EReal)

theorem isReal_coe (r : ℝ) : IsReal (r : EReal) := ⟨r, rfl⟩

theorem isReal_zero : IsReal (0 : EReal) := ⟨0, rfl⟩

theorem isReal_one : IsReal (1 : EReal) := ⟨1, rfl⟩

theorem IsReal.add {x y : EReal} (hx : IsReal x) (hy : IsReal y) : IsReal (x + y) := by
  obtain ⟨r, rfl⟩ := hx
  obtain ⟨s, rfl⟩ := hy
  exact ⟨r + s, (EReal.coe_add r s).symm⟩

theorem IsReal.mul {x y : EReal} (hx : IsReal x) (hy : IsReal y) : IsReal (x * y) := by
  obtain ⟨r, rfl⟩ := hx
  obtain ⟨s, rfl⟩ := hy
  exact ⟨r * s, (EReal.coe_mul r s).symm⟩

theorem IsReal.max {x y : EReal} (hx : IsReal x) (hy : IsReal y) : IsReal (max x y) := by
  rcases le_total x y with h | h
  · rw [max_eq_right h]; exact hy
  · rw [max_eq_left h]; exact hx

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of real entries that are all nonnegative is nonnegative. -/
theorem sum_nonneg {ι : Type*} (s : Finset ι) (f : ι → EReal) (h : ∀ i ∈ s, 0 ≤ f i) :
    0 ≤ ∑ i ∈ s, f i := Finset.sum_nonneg h

/-- The reciprocal square root of a real number that is at least one is real. -/
theorem isReal_rsqrt {x : EReal} (hx : IsReal x) (h1 : 1 ≤ x) : IsReal (Ideal.rsqrt x) := by
  obtain ⟨r, rfl⟩ := hx
  have hr : (1 : ℝ) ≤ r := by exact_mod_cast h1
  have h0 : ¬ r < 0 := by linarith
  have h0' : ¬ r = 0 := by intro h; linarith
  rw [Ideal.rsqrt_coe, if_neg h0, if_neg h0']
  exact isReal_coe _

/-- Two layers merged into one: with real rows, column and bias, the maximum with zero of
    (a + b) · w + 2 β is that of (a · w + β) + (b · w + β). -/
theorem merge_layers {K : Type} [Fintype K] (a b w : K → EReal) (β : EReal)
    (ha : ∀ k, IsReal (a k)) (hb : ∀ k, IsReal (b k)) (hw : ∀ k, IsReal (w k)) (hβ : IsReal β) :
    max ((∑ k, (a k + b k) * w k) + ((2 : ℝ) : EReal) * β) 0
      = max (((∑ k, a k * w k) + β) + ((∑ k, b k * w k) + β)) 0 := by
  choose a' ha' using ha
  choose b' hb' using hb
  choose w' hw' using hw
  obtain ⟨β', rfl⟩ := hβ
  have e1 : (∑ k, (a k + b k) * w k) = ((∑ k, (a' k + b' k) * w' k : ℝ) : EReal) := by
    rw [coe_sum]
    refine Finset.sum_congr rfl fun k _ => ?_
    rw [ha' k, hb' k, hw' k, EReal.coe_mul, EReal.coe_add]
  have e2 : (∑ k, a k * w k) = ((∑ k, a' k * w' k : ℝ) : EReal) := by
    rw [coe_sum]
    refine Finset.sum_congr rfl fun k _ => ?_
    rw [ha' k, hw' k, EReal.coe_mul]
  have e3 : (∑ k, b k * w k) = ((∑ k, b' k * w' k : ℝ) : EReal) := by
    rw [coe_sum]
    refine Finset.sum_congr rfl fun k _ => ?_
    rw [hb' k, hw' k, EReal.coe_mul]
  rw [e1, e2, e3, ← EReal.coe_mul, ← EReal.coe_add, ← EReal.coe_add, ← EReal.coe_add, ← EReal.coe_add]
  congr 2
  simp only [add_mul, Finset.sum_add_distrib]
  ring

end RealEntries
-- ==== Proof.LibFmLaw.lean ====
/-
  The factorization-machine score in two arrangements, on the extended reals.

  One sample is a feature row x (over a finite feature set ι); each feature n has an embedding row f n (over a finite
  embedding set κ). The second-order term of a factorization machine is half of

      (Σ_e Σ_n x_n f_{n,e})² − Σ_e Σ_n x_n² f_{n,e}²,

  the sums over the embedding taken last. Since x_n does not depend on e, one may instead sum each feature's embedding
  first, Σ_n x_n (Σ_e f_{n,e}) and Σ_n x_n² (Σ_e f_{n,e}²): one product with a precomputed row sum instead of a whole
  product per embedding coordinate. Pulling x_n out of the inner sum is distributivity, which holds on the extended
  reals when the entries are real numbers (it fails at infinities of opposite sign), and the exchange of the two finite
  sums always holds. The score adds the linear term, the second-order term, the deep branch and two biases; the two
  arrangements also bracket that sum differently, which is immaterial since addition of extended reals is associative.
-/
import Mathlib
import Idealize.ShloMosaic.PureOps.Ideal
import proofs.«175416_g84026740179138_cont_9to1c4b_688_3_alg».proof.Proof.LibRealEntries

noncomputable section

namespace Dfm

open RealEntries Idealize.ShloMosaic

variable {ι κ η θ : Type} [Fintype ι] [Fintype κ] [Fintype η] [Fintype θ]

/-- A real factor distributes over a finite sum of real terms. -/
theorem mul_sum_real (x : EReal) (f : κ → EReal) (hx : IsReal x) (hf : ∀ e, IsReal (f e)) :
    x * ∑ e, f e = ∑ e, x * f e := by
  obtain ⟨r, rfl⟩ := hx
  choose g hg using hf
  obtain rfl : f = fun e => ((g e : ℝ) : EReal) := funext hg
  rw [← coe_sum, ← EReal.coe_mul, Finset.mul_sum, coe_sum]
  exact Finset.sum_congr rfl fun e _ => EReal.coe_mul _ _

/-- Row sums first or last: Σ_n x_n (Σ_e f_{n,e}) = Σ_e Σ_n x_n f_{n,e} at real entries. -/
theorem sum_mul_rowsum (x : ι → EReal) (f : ι → κ → EReal) (hx : ∀ n, IsReal (x n)) (hf : ∀ n e, IsReal (f n e)) :
    ∑ n, x n * ∑ e, f n e = ∑ e, ∑ n, x n * f n e := by
  rw [Finset.sum_comm]
  exact Finset.sum_congr rfl fun n _ => mul_sum_real (x n) (f n) (hx n) (hf n)

/-- The embedding of a sample: coordinate e is Σ_n x_n f_{n,e}. -/
def emb (x : ι → EReal) (f : ι → κ → EReal) (e : κ) : EReal := ∑ n, x n * f n e

/-- The deep branch on an embedding row: two dense layers, each followed by the maximum with the floor o, and a
    final dense layer onto one output; every layer's weights are stored with the output coordinate first. -/
def deep (o : EReal) (em : κ → EReal) (w1 : η → κ → EReal) (b1 : η → EReal) (w2 : θ → η → EReal) (b2 : θ → EReal)
    (w3 : θ → EReal) : EReal :=
  ∑ k, max ((∑ j, max ((∑ e, em e * w1 j e) + b1 j) o * w2 k j) + b2 k) o * w3 k

/-- The score with each feature's embedding summed first (row sums of f and of its squares), the four summands
    added from the left. -/
def scoreRowsum (h : EReal) (x wl : ι → EReal) (bl : EReal) (f : ι → κ → EReal) (d b3 : EReal) : EReal :=
  ((((∑ n, x n * wl n) + bl)
      + h * ((∑ n, x n * ∑ e, f n e) * (∑ n, x n * ∑ e, f n e) - ∑ n, (x n * x n) * ∑ e, f n e * f n e)) + d) + b3

/-- The score with the embedding coordinates summed last, the deep branch and its bias added together first. -/
def scoreEmbsum (h : EReal) (x wl : ι → EReal) (bl : EReal) (f : ι → κ → EReal) (d b3 : EReal) : EReal :=
  (((∑ n, x n * wl n) + bl)
      + h * ((∑ e, emb x f e) * (∑ e, emb x f e) - ∑ e, ∑ n, (x n * x n) * (f n e * f n e))) + (d + b3)

/-- The two arrangements of the score agree when the sample and the embeddings are real. -/
theorem scoreRowsum_eq_scoreEmbsum (h : EReal) (x wl : ι → EReal) (bl : EReal) (f : ι → κ → EReal) (d b3 : EReal)
    (hx : ∀ n, IsReal (x n)) (hf : ∀ n e, IsReal (f n e)) :
    scoreRowsum h x wl bl f d b3 = scoreEmbsum h x wl bl f d b3 := by
  unfold scoreRowsum scoreEmbsum emb
  rw [sum_mul_rowsum x f hx hf,
    sum_mul_rowsum (fun n => x n * x n) (fun n e => f n e * f n e) (fun n => (hx n).mul (hx n))
      (fun n e => (hf n e).mul (hf n e)),
    add_assoc _ d b3]

/-- The output: the score squashed by the logistic function into (h, h + c). -/
def squash (h c z : EReal) : EReal := h + Ideal.logistic z * c

/-- The prediction for one sample with each feature's embedding summed first: o is the floor of the deep branch's
    two maxima, h the factor of the second-order term and the lower end of the output range, c the range's length. -/
def predRowsum (o h c : EReal) (x wl : ι → EReal) (bl : EReal) (f : ι → κ → EReal) (w1 : η → κ → EReal) (b1 : η → EReal)
    (w2 : θ → η → EReal) (b2 : θ → EReal) (w3 : θ → EReal) (b3 : EReal) : EReal :=
  squash h c (scoreRowsum h x wl bl f (deep o (emb x f) w1 b1 w2 b2 w3) b3)

/-- The prediction for one sample with the embedding coordinates summed last. -/
def predEmbsum (o h c : EReal) (x wl : ι → EReal) (bl : EReal) (f : ι → κ → EReal) (w1 : η → κ → EReal) (b1 : η → EReal)
    (w2 : θ → η → EReal) (b2 : θ → EReal) (w3 : θ → EReal) (b3 : EReal) : EReal :=
  squash h c (scoreEmbsum h x wl bl f (deep o (emb x f) w1 b1 w2 b2 w3) b3)

/-- The two predictions agree when the sample and the embeddings are real. -/
theorem predRowsum_eq_predEmbsum (o h c : EReal) (x wl : ι → EReal) (bl : EReal) (f : ι → κ → EReal) (w1 : η → κ → EReal)
    (b1 : η → EReal) (w2 : θ → η → EReal) (b2 : θ → EReal) (w3 : θ → EReal) (b3 : EReal)
    (hx : ∀ n, IsReal (x n)) (hf : ∀ n e, IsReal (f n e)) :
    predRowsum o h c x wl bl f w1 b1 w2 b2 w3 b3 = predEmbsum o h c x wl bl f w1 b1 w2 b2 w3 b3 := by
  unfold predRowsum predEmbsum
  rw [scoreRowsum_eq_scoreEmbsum h x wl bl f _ b3 hx hf]

end Dfm

end
-- ==== Proof.TileDeep.lean ====
/-
  The deep branch of one tile, read at a sample.

  From the sample's embedding (the first 64 columns of the wide product) the tile computes two dense layers, each
  h ↦ max (h · Wᵀ + b, 0) with the weights stored output-coordinate first — so an output coordinate is the embedding
  against one ROW of the weight matrix — and a last layer onto a single output. Read at a sample p this is the nested
  sum Dfm.deep of the sample's embedding, on the extended reals.
-/
import proofs.«175416_g84026740179138_cont_9to1c4b_688_3_alg».proof.Proof.TileWide
import proofs.«175416_g84026740179138_cont_9to1c4b_688_3_alg».proof.Proof.LibRowsDot
import proofs.«175416_g84026740179138_cont_9to1c4b_688_3_alg».proof.Proof.LibFmLaw

noncomputable section

namespace Cert.KernelIdeal.Tile

open Idealize.ShloMosaic Idealize.ShloMosaic.ValueIdx Cert.KernelIdeal Cert.KernelIdeal.Gen RowsDot

/-- The first hidden layer of the tile. -/
def hidden1 (v0 : Vec Ideal S1000x64 .f32) (v6 : Vec Ideal S1x1000 .f32) (v9 : Vec Ideal S512x1000 .f32)
    (v16 : Vec Ideal S128x64 .f32) (v18 : Vec Ideal S128 .f32) : FVec Ideal S512x128 .f32 :=
  maximumf
    (addf
      (matmul (φ₁ := .f32) (φ₂ := .f32) dot_S512x64_S128x64_S512x128_1_1_0_0_n_n none
        (extractStridedSlice S512x64 ![0, 0] (k0_pay2 (F := Ideal) v0 v6 v9) slices_S512x66_o0_0_S512x64) v16
        (constant S512x128 .f32 0x00000000#32))
      (broadcastTo S512x128 (shapeCast S1x128 v18 shapeCasts_S128_S1x128) broadcasts_S1x128_S512x128))
    (broadcast S512x128 (Scalar.ofBits (F := Ideal) .f32 0x00000000#32))

/-- The second hidden layer of the tile. -/
def hidden2 (v0 : Vec Ideal S1000x64 .f32) (v6 : Vec Ideal S1x1000 .f32) (v9 : Vec Ideal S512x1000 .f32)
    (v16 : Vec Ideal S128x64 .f32) (v18 : Vec Ideal S128 .f32) (v24 : Vec Ideal S64x128 .f32) (v26 : Vec Ideal S64 .f32) :
    FVec Ideal S512x64 .f32 :=
  maximumf
    (addf
      (matmul (φ₁ := .f32) (φ₂ := .f32) dot_S512x128_S64x128_S512x64_1_1_0_0_n_n none (hidden1 v0 v6 v9 v16 v18) v24
        (constant S512x64 .f32 0x00000000#32))
      (broadcastTo S512x64 (shapeCast S1x64 v26 shapeCasts_S64_S1x64) broadcasts_S1x64_S512x64))
    (broadcast S512x64 (Scalar.ofBits (F := Ideal) .f32 0x00000000#32))

/-- The deep branch's result is the last layer applied to the second hidden layer. -/
theorem pay6_eq (v0 : Vec Ideal S1000x64 .f32) (v6 : Vec Ideal S1x1000 .f32) (v9 : Vec Ideal S512x1000 .f32)
    (v16 : Vec Ideal S128x64 .f32) (v18 : Vec Ideal S128 .f32) (v24 : Vec Ideal S64x128 .f32) (v26 : Vec Ideal S64 .f32)
    (v32 : Vec Ideal S1x64 .f32) :
    k0_pay6 (F := Ideal) v0 v6 v9 v16 v18 v24 v26 v32
      = matmul (φ₁ := .f32) (φ₂ := .f32) dot_S512x64_S1x64_S512x1_1_1_0_0_n_n none (hidden2 v0 v6 v9 v16 v18 v24 v26) v32
          (constant S512x1 .f32 0x00000000#32) := rfl

/-- The first hidden layer at sample p, unit j. -/
theorem hidden1_apply (v0 : Vec Ideal S1000x64 .f32) (v6 : Vec Ideal S1x1000 .f32) (v9 : Vec Ideal S512x1000 .f32)
    (v16 : Vec Ideal S128x64 .f32) (v18 : Vec Ideal S128 .f32) (p : Fin 512) (j : Fin 128) :
    hidden1 v0 v6 v9 v16 v18 (ix2 p j)
      = max ((∑ e : Fin 64, (∑ n : Fin 1000, v9 (ix2 p n) * v0 (ix2 n e)) * v16 (ix2 j e)) + v18 (ix1 j))
          (Ideal.ofBits .f32 0x00000000#32) := by
  show max ((_ : EReal) + (_ : EReal)) (_ : EReal) = _
  refine congrArg₂ (fun a b => max (a + b) (Ideal.ofBits .f32 0x00000000#32)) ?_ ?_
  · refine (rowsDot_apply (M := 512) (K := 64) (N := 128) _ v16 p j).trans ?_
    exact Finset.sum_congr rfl fun e _ => congrArg (· * v16 (ix2 j e)) (embedding_apply v0 v6 v9 p e)
  · exact biasRow_apply v18 shapeCasts_S128_S1x128 broadcasts_S1x128_S512x128 p j

/-- The second hidden layer at sample p, unit k. -/
theorem hidden2_apply (v0 : Vec Ideal S1000x64 .f32) (v6 : Vec Ideal S1x1000 .f32) (v9 : Vec Ideal S512x1000 .f32)
    (v16 : Vec Ideal S128x64 .f32) (v18 : Vec Ideal S128 .f32) (v24 : Vec Ideal S64x128 .f32) (v26 : Vec Ideal S64 .f32)
    (p : Fin 512) (k : Fin 64) :
    hidden2 v0 v6 v9 v16 v18 v24 v26 (ix2 p k)
      = max ((∑ j : Fin 128, hidden1 v0 v6 v9 v16 v18 (ix2 p j) * v24 (ix2 k j)) + v26 (ix1 k))
          (Ideal.ofBits .f32 0x00000000#32) := by
  show max ((_ : EReal) + (_ : EReal)) (_ : EReal) = _
  refine congrArg₂ (fun a b => max (a + b) (Ideal.ofBits .f32 0x00000000#32)) ?_ ?_
  · exact rowsDot_apply (M := 512) (K := 128) (N := 64) (hidden1 v0 v6 v9 v16 v18) v24 p k
  · exact biasRow_apply v26 shapeCasts_S64_S1x64 broadcasts_S1x64_S512x64 p k

/-- The deep branch at sample p is Dfm.deep of the sample's embedding. -/
theorem deep_apply (v0 : Vec Ideal S1000x64 .f32) (v6 : Vec Ideal S1x1000 .f32) (v9 : Vec Ideal S512x1000 .f32)
    (v16 : Vec Ideal S128x64 .f32) (v18 : Vec Ideal S128 .f32) (v24 : Vec Ideal S64x128 .f32) (v26 : Vec Ideal S64 .f32)
    (v32 : Vec Ideal S1x64 .f32) (p : Fin 512) (z : Fin 1) :
    k0_pay6 (F := Ideal) v0 v6 v9 v16 v18 v24 v26 v32 (ix2 p z)
      = Dfm.deep (Ideal.ofBits .f32 0x00000000#32) (Dfm.emb (fun n : Fin 1000 => v9 (ix2 p n)) (fun n (e : Fin 64) => v0 (ix2 n e)))
          (fun (j : Fin 128) e => v16 (ix2 j e)) (fun j => v18 (ix1 j)) (fun (k : Fin 64) j => v24 (ix2 k j))
          (fun k => v26 (ix1 k)) (fun k => v32 (ix2 (0 : Fin 1) k)) := by
  obtain rfl : z = 0 := Subsingleton.elim _ _
  rw [pay6_eq]
  refine (rowsDot_apply (M := 512) (K := 64) (N := 1) (hidden2 v0 v6 v9 v16 v18 v24 v26) v32 p 0).trans ?_
  unfold Dfm.deep Dfm.emb
  refine Finset.sum_congr rfl fun k _ => congrArg (· * v32 (ix2 (0 : Fin 1) k)) ?_
  rw [hidden2_apply]
  refine congrArg (fun a => max (a + v26 (ix1 k)) (Ideal.ofBits .f32 0x00000000#32)) ?_
  exact Finset.sum_congr rfl fun j _ => congrArg (· * v24 (ix2 k j)) (hidden1_apply v0 v6 v9 v16 v18 p j)

end Cert.KernelIdeal.Tile

end
-- ==== Proof.TileScore.lean ====
/-
  The tile's output at a sample.

  From the linear term, the two second-order sums and the deep branch, the tile forms the score
      z = (((lin + b_lin) + ½ · (s · s − q)) + deep) + b₃
  (each bias a one-element vector spread over the tile's 512 rows) and stores ½ + logistic z · 5. Read at a sample p,
  with the four quantities read as their sums, this is Dfm.predRowsum of the sample's row and the parameters.
-/
import proofs.«175416_g84026740179138_cont_9to1c4b_688_3_alg».proof.Proof.TileDeep

noncomputable section

namespace Cert.KernelIdeal.Tile

open Idealize.ShloMosaic Idealize.ShloMosaic.ValueIdx Cert.KernelIdeal Cert.KernelIdeal.Gen RowsDot

/-- The last stage at sample p: the four quantities and the two biases combined and squashed. -/
theorem combine_apply (v12 v13 v15 v33 : FVec Ideal S512x1 .f32) (v34 v44 : Vec Ideal S1 .f32) (p : Fin 512) :
    k0_pay1 (F := Ideal) v12 v13 v15 v33 v34 v44 (ix2 p (0 : Fin 1))
      = Dfm.squash (Ideal.ofBits .f32 0x3F000000#32) (Ideal.ofBits .f32 0x40A00000#32)
          ((((v12 (ix2 p (0 : Fin 1)) + v34 (ix1 (0 : Fin 1)))
              + Ideal.ofBits .f32 0x3F000000#32
                  * (v13 (ix2 p (0 : Fin 1)) * v13 (ix2 p (0 : Fin 1)) - v15 (ix2 p (0 : Fin 1))))
            + v33 (ix2 p (0 : Fin 1))) + v44 (ix1 (0 : Fin 1))) := by
  have e1 : broadcastTo S512x1 (shapeCast S1x1 v34 shapeCasts_S1_S1x1) broadcasts_S1x1_S512x1 (ix2 p (0 : Fin 1))
      = v34 (ix1 (0 : Fin 1)) := biasRow_apply v34 shapeCasts_S1_S1x1 broadcasts_S1x1_S512x1 p 0
  have e2 : broadcastTo S512x1 (shapeCast S1x1 v44 shapeCasts_S1_S1x1) broadcasts_S1x1_S512x1 (ix2 p (0 : Fin 1))
      = v44 (ix1 (0 : Fin 1)) := biasRow_apply v44 shapeCasts_S1_S1x1 broadcasts_S1x1_S512x1 p 0
  unfold Dfm.squash
  show Ideal.ofBits .f32 0x3F000000#32
      + Ideal.logistic ((((v12 (ix2 p (0 : Fin 1))
            + broadcastTo S512x1 (shapeCast S1x1 v34 shapeCasts_S1_S1x1) broadcasts_S1x1_S512x1 (ix2 p (0 : Fin 1)))
          + Ideal.ofBits .f32 0x3F000000#32
              * (v13 (ix2 p (0 : Fin 1)) * v13 (ix2 p (0 : Fin 1)) - v15 (ix2 p (0 : Fin 1))))
          + v33 (ix2 p (0 : Fin 1)))
          + broadcastTo S512x1 (shapeCast S1x1 v44 shapeCasts_S1_S1x1) broadcasts_S1x1_S512x1 (ix2 p (0 : Fin 1)))
        * Ideal.ofBits .f32 0x40A00000#32 = _
  rw [e1, e2]

/-- The tile's stored value at sample p: the prediction with each feature's embedding summed first. -/
theorem tile_apply (x0 : Vec Ideal S512x1000 .f32) (x1 : Vec Ideal S1000x64 .f32) (x2 : Vec Ideal S1x1000 .f32)
    (x3 : Vec Ideal S1 .f32) (x4 : Vec Ideal S128x64 .f32) (x5 : Vec Ideal S128 .f32) (x6 : Vec Ideal S64x128 .f32)
    (x7 : Vec Ideal S64 .f32) (x8 : Vec Ideal S1x64 .f32) (x9 : Vec Ideal S1 .f32) (p : Fin 512) :
    k0_pay1 (F := Ideal) (k0_pay3 x1 x2 x0) (k0_pay4 x1 x2 x0) (k0_pay5 x1 x0) (k0_pay6 x1 x2 x0 x4 x5 x6 x7 x8) x3 x9
        (ix2 p (0 : Fin 1))
      = Dfm.predRowsum (Ideal.ofBits .f32 0x00000000#32) (Ideal.ofBits .f32 0x3F000000#32) (Ideal.ofBits .f32 0x40A00000#32)
          (fun n : Fin 1000 => x0 (ix2 p n)) (fun n => x2 (ix2 (0 : Fin 1) n)) (x3 (ix1 (0 : Fin 1)))
          (fun n (e : Fin 64) => x1 (ix2 n e)) (fun (j : Fin 128) e => x4 (ix2 j e)) (fun j => x5 (ix1 j))
          (fun (k : Fin 64) j => x6 (ix2 k j)) (fun k => x7 (ix1 k)) (fun k => x8 (ix2 (0 : Fin 1) k))
          (x9 (ix1 (0 : Fin 1))) := by
  rw [combine_apply, linear_apply, rowsum_apply, squares_apply, deep_apply]
  rfl

end Cert.KernelIdeal.Tile

end
-- ==== Proof.KernelArray.lean ====
/-
  From the tiles to the result array, and the reshape after the region.

  The grid has 8 points; point t stages rows 512·t … 512·t + 511 of the sample array and of the result column, and the
  whole of every parameter array. The tile's stored value at row p depends on the samples only through row p of its
  block, which is row 512·t + p of the array: so what point t writes back is block t of ONE function of the whole
  arrays, the prediction of every sample (each feature's embedding summed first). The 8 blocks tile the [4096, 1]
  result, which therefore ends holding that function; the reshape to [4096] that follows the region reads it at (b, 0).
-/
import proofs.«175416_g84026740179138_cont_9to1c4b_688_3_alg».proof.Proof.Gen.KernelIdeal.Frame
import proofs.«175416_g84026740179138_cont_9to1c4b_688_3_alg».proof.Proof.TileScore
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Whole

open Idealize.ShloMosaic.ValueIdx Cert.KernelIdeal Cert.KernelIdeal.Gen Cert.KernelIdeal.Tile

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a; rfl

/-- The prediction of sample b from whole arrays, each feature's embedding summed first. -/
def predAt (X : S4096x1000.Idx → EReal) (Wl : S1x1000.Idx → EReal) (bl : S1.Idx → EReal) (Fm : S1000x64.Idx → EReal)
    (W1 : S128x64.Idx → EReal) (b1 : S128.Idx → EReal) (W2 : S64x128.Idx → EReal) (b2 : S64.Idx → EReal)
    (W3 : S1x64.Idx → EReal) (b3 : S1.Idx → EReal) (b : Fin 4096) : EReal :=
  Dfm.predRowsum (Ideal.ofBits .f32 0x00000000#32) (Ideal.ofBits .f32 0x3F000000#32) (Ideal.ofBits .f32 0x40A00000#32)
    (fun n : Fin 1000 => X (ix2 b n)) (fun n => Wl (ix2 (0 : Fin 1) n)) (bl (ix1 (0 : Fin 1)))
    (fun n (e : Fin 64) => Fm (ix2 n e)) (fun (j : Fin 128) e => W1 (ix2 j e)) (fun j => b1 (ix1 j))
    (fun (k : Fin 64) j => W2 (ix2 k j)) (fun k => b2 (ix1 k)) (fun k => W3 (ix2 (0 : Fin 1) k))
    (b3 (ix1 (0 : Fin 1)))

/-- The result column: the prediction of every sample, from the argument arrays as launched. -/
def column (c : Dev nD) : Buf (Elt Ideal) ((c : Thread nD τ).loc main_v0) := fun i =>
  predAt (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (i 0)

/-- The printed index maps, decided over the grid: the sample window and the result window are at block (t, 0), every
    parameter window at block 0. -/
theorem idx_facts : ∀ t : Fin cfg0.N,
    win0_10.index t (0 : Fin 2) = t.val ∧ win0_10.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 1) = 0 :=
  (by decide +kernel : ∀ t : Fin grid0.N, _)

/-- Row p of the sample window's block at point t is row 512·t + p of the sample array. -/
theorem samples_apply (c : Dev nD) (t : Fin cfg0.N) (p : Fin 512) (n : Fin 1000) (r : Fin 4096)
    (hr : r.val = 512 * t.val + p.val) :
    (iblk m c 0 t : Vec Ideal S512x1000 .f32) (ix2 p n)
      = (m ((c : Thread nD τ).loc main_arg0) : S4096x1000.Idx → Elt Ideal .f32) (ix2 r n) := by
  obtain ⟨-, -, h0, h1, -⟩ := idx_facts t
  unfold iblk
  rw [View.read_apply]
  show m ((c : Thread nD τ).loc main_arg0) _ = m ((c : Thread nD τ).loc main_arg0) _
  congr 1
  funext a
  apply Fin.ext
  match a with
  | ⟨0, _⟩ => show win0_0.index t (0 : Fin 2) * 512 + 1 * p.val = r.val; rw [h0, hr]; omega
  | ⟨1, _⟩ => show win0_0.index t (1 : Fin 2) * 1000 + 1 * n.val = n.val; rw [h1]; omega

/-- Each parameter window's block, at every point, is the whole parameter array. -/
theorem table_eq (c : Dev nD) (t : Fin cfg0.N) :
    (iblk m c 1 t : Vec Ideal S1000x64 .f32) = (m ((c : Thread nD τ).loc main_arg3) : S1000x64.Idx → Elt Ideal .f32) := by
  obtain ⟨-, -, -, -, h0, h1, -⟩ := idx_facts t
  funext y
  unfold iblk
  rw [View.read_apply]
  show m ((c : Thread nD τ).loc main_arg3) _ = m ((c : Thread nD τ).loc main_arg3) _
  congr 1
  funext a
  apply Fin.ext
  match a with
  | ⟨0, _⟩ => show win0_1.index t (0 : Fin 2) * 1000 + 1 * (y 0).val = (y 0).val; rw [h0]; omega
  | ⟨1, _⟩ => show win0_1.index t (1 : Fin 2) * 64 + 1 * (y 1).val = (y 1).val; rw [h1]; omega

theorem wlin_eq (c : Dev nD) (t : Fin cfg0.N) :
    (iblk m c 2 t : Vec Ideal S1x1000 .f32) = (m ((c : Thread nD τ).loc main_arg1) : S1x1000.Idx → Elt Ideal .f32) := by
  obtain ⟨-, -, -, -, -, -, h0, h1, -⟩ := idx_facts t
  funext y
  unfold iblk
  rw [View.read_apply]
  show m ((c : Thread nD τ).loc main_arg1) _ = m ((c : Thread nD τ).loc main_arg1) _
  congr 1
  funext a
  apply Fin.ext
  match a with
  | ⟨0, _⟩ => show win0_2.index t (0 : Fin 2) * 1 + 1 * (y 0).val = (y 0).val; rw [h0]; omega
  | ⟨1, _⟩ => show win0_2.index t (1 : Fin 2) * 1000 + 1 * (y 1).val = (y 1).val; rw [h1]; omega

theorem blin_eq (c : Dev nD) (t : Fin cfg0.N) :
    (iblk m c 3 t : Vec Ideal S1 .f32) = (m ((c : Thread nD τ).loc main_arg2) : S1.Idx → Elt Ideal .f32) := by
  obtain ⟨-, -, -, -, -, -, -, -, h0, -⟩ := idx_facts t
  funext y
  unfold iblk
  rw [View.read_apply]
  show m ((c : Thread nD τ).loc main_arg2) _ = m ((c : Thread nD τ).loc main_arg2) _
  congr 1
  funext a
  apply Fin.ext
  match a with
  | ⟨0, _⟩ => show win0_3.index t (0 : Fin 1) * 1 + 1 * (y 0).val = (y 0).val; rw [h0]; omega

theorem w1_eq (c : Dev nD) (t : Fin cfg0.N) :
    (iblk m c 4 t : Vec Ideal S128x64 .f32) = (m ((c : Thread nD τ).loc main_arg4) : S128x64.Idx → Elt Ideal .f32) := by
  obtain ⟨-, -, -, -, -, -, -, -, -, h0, h1, -⟩ := idx_facts t
  funext y
  unfold iblk
  rw [View.read_apply]
  show m ((c : Thread nD τ).loc main_arg4) _ = m ((c : Thread nD τ).loc main_arg4) _
  congr 1
  funext a
  apply Fin.ext
  match a with
  | ⟨0, _⟩ => show win0_4.index t (0 : Fin 2) * 128 + 1 * (y 0).val = (y 0).val; rw [h0]; omega
  | ⟨1, _⟩ => show win0_4.index t (1 : Fin 2) * 64 + 1 * (y 1).val = (y 1).val; rw [h1]; omega

theorem b1_eq (c : Dev nD) (t : Fin cfg0.N) :
    (iblk m c 5 t : Vec Ideal S128 .f32) = (m ((c : Thread nD τ).loc main_arg5) : S128.Idx → Elt Ideal .f32) := by
  obtain ⟨-, -, -, -, -, -, -, -, -, -, -, h0, -⟩ := idx_facts t
  funext y
  unfold iblk
  rw [View.read_apply]
  show m ((c : Thread nD τ).loc main_arg5) _ = m ((c : Thread nD τ).loc main_arg5) _
  congr 1
  funext a
  apply Fin.ext
  match a with
  | ⟨0, _⟩ => show win0_5.index t (0 : Fin 1) * 128 + 1 * (y 0).val = (y 0).val; rw [h0]; omega

theorem w2_eq (c : Dev nD) (t : Fin cfg0.N) :
    (iblk m c 6 t : Vec Ideal S64x128 .f32) = (m ((c : Thread nD τ).loc main_arg6) : S64x128.Idx → Elt Ideal .f32) := by
  obtain ⟨-, -, -, -, -, -, -, -, -, -, -, -, h0, h1, -⟩ := idx_facts t
  funext y
  unfold iblk
  rw [View.read_apply]
  show m ((c : Thread nD τ).loc main_arg6) _ = m ((c : Thread nD τ).loc main_arg6) _
  congr 1
  funext a
  apply Fin.ext
  match a with
  | ⟨0, _⟩ => show win0_6.index t (0 : Fin 2) * 64 + 1 * (y 0).val = (y 0).val; rw [h0]; omega
  | ⟨1, _⟩ => show win0_6.index t (1 : Fin 2) * 128 + 1 * (y 1).val = (y 1).val; rw [h1]; omega

theorem b2_eq (c : Dev nD) (t : Fin cfg0.N) :
    (iblk m c 7 t : Vec Ideal S64 .f32) = (m ((c : Thread nD τ).loc main_arg7) : S64.Idx → Elt Ideal .f32) := by
  obtain ⟨-, -, -, -, -, -, -, -, -, -, -, -, -, -, h0, -⟩ := idx_facts t
  funext y
  unfold iblk
  rw [View.read_apply]
  show m ((c : Thread nD τ).loc main_arg7) _ = m ((c : Thread nD τ).loc main_arg7) _
  congr 1
  funext a
  apply Fin.ext
  match a with
  | ⟨0, _⟩ => show win0_7.index t (0 : Fin 1) * 64 + 1 * (y 0).val = (y 0).val; rw [h0]; omega

theorem w3_eq (c : Dev nD) (t : Fin cfg0.N) :
    (iblk m c 8 t : Vec Ideal S1x64 .f32) = (m ((c : Thread nD τ).loc main_arg8) : S1x64.Idx → Elt Ideal .f32) := by
  obtain ⟨-, -, -, -, -, -, -, -, -, -, -, -, -, -, -, h0, h1, -⟩ := idx_facts t
  funext y
  unfold iblk
  rw [View.read_apply]
  show m ((c : Thread nD τ).loc main_arg8) _ = m ((c : Thread nD τ).loc main_arg8) _
  congr 1
  funext a
  apply Fin.ext
  match a with
  | ⟨0, _⟩ => show win0_8.index t (0 : Fin 2) * 1 + 1 * (y 0).val = (y 0).val; rw [h0]; omega
  | ⟨1, _⟩ => show win0_8.index t (1 : Fin 2) * 64 + 1 * (y 1).val = (y 1).val; rw [h1]; omega

theorem b3_eq (c : Dev nD) (t : Fin cfg0.N) :
    (iblk m c 9 t : Vec Ideal S1 .f32) = (m ((c : Thread nD τ).loc main_arg9) : S1.Idx → Elt Ideal .f32) := by
  obtain ⟨-, -, -, -, -, -, -, -, -, -, -, -, -, -, -, -, -, h0⟩ := idx_facts t
  funext y
  unfold iblk
  rw [View.read_apply]
  show m ((c : Thread nD τ).loc main_arg9) _ = m ((c : Thread nD τ).loc main_arg9) _
  congr 1
  funext a
  apply Fin.ext
  match a with
  | ⟨0, _⟩ => show win0_9.index t (0 : Fin 1) * 1 + 1 * (y 0).val = (y 0).val; rw [h0]; omega

/-- What point t writes back is block t of the result column. -/
theorem flushed_eq (c : Dev nD) (t : Fin cfg0.N) :
    (dats m 0 c).flushed 10 t = ((cfg0.win 10).blk t).view.read (Elt Ideal) (column m c) := by
  show (cfg0.win 10).cut (grid0.coords t) ((dats m 0 c).after 10 t) = _
  rw [after0_10]
  unfold out0_10
  rw [View.canon_unit_zero hz2]
  simp only [View.ld_unit_zero (S := S512x1000) hz2, View.ld_unit_zero (S := S1000x64) hz2, View.ld_unit_zero (S := S1x1000) hz2, View.ld_unit_zero (S := S128x64) hz2,
    View.ld_unit_zero (S := S64x128) hz2, View.ld_unit_zero (S := S1x64) hz2, View.ld_unit_zero (S := S1) hz1, View.ld_unit_zero (S := S128) hz1, View.ld_unit_zero (S := S64) hz1]
  obtain ⟨e0, e1, -⟩ := idx_facts t
  funext y
  obtain ⟨p, z, rfl⟩ : ∃ (p : Fin 512) (z : Fin 1), y = ix2 p z := ⟨y 0, y 1, eq_ix2 y⟩
  obtain rfl : z = 0 := Subsingleton.elim _ _
  refine (tile_apply (iblk m c 0 t) (iblk m c 1 t) (iblk m c 2 t) (iblk m c 3 t) (iblk m c 4 t) (iblk m c 5 t)
    (iblk m c 6 t) (iblk m c 7 t) (iblk m c 8 t) (iblk m c 9 t) p).trans ?_
  rw [View.read_apply, table_eq, wlin_eq, blin_eq, w1_eq, b1_eq, w2_eq, b2_eq, w3_eq, b3_eq]
  unfold column predAt
  have hrow : ((((cfg0.win 10).blk t).view.emb (ix2 p (0 : Fin 1))) 0).val = 512 * t.val + p.val := by
    show win0_10.index t (0 : Fin 2) * 512 + 1 * p.val = _
    rw [e0]; omega
  have hs : (fun n : Fin 1000 => (iblk m c 0 t : Vec Ideal S512x1000 .f32) (ix2 p n))
      = fun n : Fin 1000 => (m ((c : Thread nD τ).loc main_arg0) : S4096x1000.Idx → Elt Ideal .f32)
          (ix2 ((((cfg0.win 10).blk t).view.emb (ix2 p (0 : Fin 1))) 0) n) :=
    funext fun n => samples_apply m c t p n _ hrow
  rw [hs]
  rfl

/-- An index of the result column is in point t's block iff each coordinate is in the block's range. -/
theorem mem_blk (t : Fin cfg0.N) (i : S4096x1.Idx) :
    i ∈ ((cfg0.win 10).blk t).view.set
      ↔ ∀ a : Fin 2, win0_10.index t a * S512x1.size a ≤ (i a).val ∧ (i a).val < win0_10.index t a * S512x1.size a + S512x1.size a := by
  show i ∈ ((View.whole main_v0).slice (win0_10.rect t)).set ↔ _
  rw [View.set_slice_whole, Rect.mem_set_unit]
  exact Iff.rfl

/-- The result column after the region: row r is covered by the block of point r / 512. -/
theorem final (c : Dev nD) : (dats m 0 c).arrAt 10 cfg0.N = column m c :=
  (dats m 0 c).arrAt_eq_of_cover 10 (column m c) (fun t _ => flushed_eq m c t) fun i => by
    have hi0 : (i 0).val < 4096 := (i 0).isLt
    have hi1 : (i 1).val < 1 := (i 1).isLt
    have hN : cfg0.N = 8 := N_0
    let t : Fin cfg0.N := ⟨(i 0).val / 512, by rw [hN]; omega⟩
    obtain ⟨e0, e1, -⟩ := idx_facts t
    refine ⟨t, flush0_10 t, ?_⟩
    rw [mem_blk]
    intro a
    match a with
    | ⟨0, _⟩ =>
      show win0_10.index t (0 : Fin 2) * 512 ≤ (i 0).val ∧ (i 0).val < win0_10.index t (0 : Fin 2) * 512 + 512
      rw [e0]; show (i 0).val / 512 * 512 ≤ (i 0).val ∧ (i 0).val < (i 0).val / 512 * 512 + 512; omega
    | ⟨1, _⟩ =>
      show win0_10.index t (1 : Fin 2) * 1 ≤ (i 1).val ∧ (i 1).val < win0_10.index t (1 : Fin 2) * 1 + 1
      rw [e1]; omega

end Cert.KernelIdeal.Whole

end
-- ==== Proof.KernelRun.lean ====
/-
  The idealized kernel's run, read: the result and the unchanged arguments.

  After the region the result column holds the prediction of every sample; one host operation follows, the reshape of
  the [4096, 1] column to a vector of 4096, which reads entry b from (b, 0). So @main's result at b is the prediction
  of sample b, and the ten argument arrays end as they were launched.
-/
import proofs.«175416_g84026740179138_cont_9to1c4b_688_3_alg».proof.Proof.KernelArray

noncomputable section

open Idealize.ShloMosaic Idealize.ShloMosaic.TcCoe Idealize.SL.Sem
open Idealize.ShloMosaic.Pipeline (Dat)

namespace Cert.KernelIdeal.Whole

open Idealize.ShloMosaic.ValueIdx Cert.KernelIdeal Cert.KernelIdeal.Gen

variable (m : (ℓ : Loc nD τ sig) → Buf (Elt Ideal) ℓ) (ρ : Dev nD → PrngReg)

/-- The reshape that follows the region, applied to what the region leaves in the result column. -/
theorem tail_eq (c : Dev nD) :
    Pipeline.afterTail₀ cfgs (dats m) 0 (V0 m) [hostOps1] c main_v1
      = shapeCast S4096 (column m c) shapeCasts_S4096x1_S4096 := by
  unfold Pipeline.afterTail₀
  show StableHlo.after hostOps1 _ (Proc.devRef .tc main_v1) = _
  after_results
  rw [(Pipeline.withArrays_arr spec0 launch0.win.arr_inj c _ _ 10).trans (final m c)]
  rfl

/-- The result vector at b is the prediction of sample b. -/
theorem result_apply (c : Dev nD) (b : Fin 4096) :
    shapeCast S4096 (column m c) shapeCasts_S4096x1_S4096 (ix1 b) = column m c (ix2 b (0 : Fin 1)) := by
  refine shapeCast_apply (column m c) shapeCasts_S4096x1_S4096 (ix1 b) (ix2 b (0 : Fin 1)) ?_
  show (S4096x1.rowMajor (ix2 b (0 : Fin 1))).val = (S4096.rowMajor (ix1 b)).val
  rw [Shape.rowMajor_val_two, Shape.rowMajor_val_one]
  show b.val * 1 + 0 = b.val
  omega

/-- The run: the result vector and the ten arguments. -/
theorem run : θ_run defs (onTc (τ := τ) (main (F := Ideal))) ⟨m, fun _ => 0, ρ⟩ fun r => ∀ c : Dev nD,
      r.2.mem ((c.tc : Thread nD τ).loc main_v1) = shapeCast S4096 (column m c) shapeCasts_S4096x1_S4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨
      ((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c)))⟩)
    (run_main m ρ)

end Cert.KernelIdeal.Whole

end
-- ==== Proof.RefParts.lean ====
/-
  The reference's stages, read at explicit coordinates.

  The reference computes, for sample b of 4096: the embedding x · f (a product contracted over the 1000 features), the
  sum of its 64 coordinates, the same for the squared sample and squared table, the linear term x · wlᵀ, and the deep
  branch — each dense layer a product with a TRANSPOSED weight matrix, so that an output coordinate pairs the input with
  a row of the stored weights. Each generated stage is read here at coordinates (b, ·), its index maps reduced to those
  coordinates, and identified with the corresponding sum of module LibFmLaw.
-/
import proofs.«175416_g84026740179138_cont_9to1c4b_688_3_alg».proof.Proof.Gen.ReferenceIdeal.Read
import proofs.«175416_g84026740179138_cont_9to1c4b_688_3_alg».proof.Proof.LibFmLaw

noncomputable section

namespace Cert.ReferenceIdeal.RefRead

open Idealize.ShloMosaic Idealize.ShloMosaic.ValueIdx Cert.ReferenceIdeal Cert.ReferenceIdeal.Gen Cert.ReferenceIdeal.Read

variable (x0 : (⟨S4096x1000, .f32⟩ : BufTy).Contents (Elt Ideal)) (x1 : (⟨S1x1000, .f32⟩ : BufTy).Contents (Elt Ideal)) (x2 : (⟨S1, .f32⟩ : BufTy).Contents (Elt Ideal)) (x3 : (⟨S1000x64, .f32⟩ : BufTy).Contents (Elt Ideal))
  (x4 : (⟨S128x64, .f32⟩ : BufTy).Contents (Elt Ideal)) (x5 : (⟨S128, .f32⟩ : BufTy).Contents (Elt Ideal)) (x6 : (⟨S64x128, .f32⟩ : BufTy).Contents (Elt Ideal)) (x7 : (⟨S64, .f32⟩ : BufTy).Contents (Elt Ideal))
  (x8 : (⟨S1x64, .f32⟩ : BufTy).Contents (Elt Ideal)) (x9 : (⟨S1, .f32⟩ : BufTy).Contents (Elt Ideal))

/-! ## The index maps at coordinates -/

theorem lidx_v1 (b : Fin 4096) (z : Fin 1) (n : Fin 1000) : lidx_main_v1 (ix2 b z) n = ix2 b n := funext fun a => match a with | ⟨0, _⟩ => rfl | ⟨1, _⟩ => rfl
theorem ridx_v1 (b : Fin 4096) (z : Fin 1) (n : Fin 1000) : ridx_main_v1 (ix2 b z) n = ix2 n z := funext fun a => match a with | ⟨0, _⟩ => rfl | ⟨1, _⟩ => rfl
theorem idx_v0 (n : Fin 1000) (z : Fin 1) : idx_main_v0 (ix2 n z) = ix2 z n := funext fun a => match a with | ⟨0, _⟩ => rfl | ⟨1, _⟩ => rfl
theorem lidx_v5 (b : Fin 4096) (e : Fin 64) (n : Fin 1000) : lidx_main_v5 (ix2 b e) n = ix2 b n := funext fun a => match a with | ⟨0, _⟩ => rfl | ⟨1, _⟩ => rfl
theorem ridx_v5 (b : Fin 4096) (e : Fin 64) (n : Fin 1000) : ridx_main_v5 (ix2 b e) n = ix2 n e := funext fun a => match a with | ⟨0, _⟩ => rfl | ⟨1, _⟩ => rfl
theorem idx_v6 (b : Fin 4096) (e : Fin 64) : idx_main_v6 (ix1 b) e = ix2 b e := funext fun a => match a with | ⟨0, _⟩ => rfl | ⟨1, _⟩ => rfl
theorem lidx_v10 (b : Fin 4096) (e : Fin 64) (n : Fin 1000) : lidx_main_v10 (ix2 b e) n = ix2 b n := funext fun a => match a with | ⟨0, _⟩ => rfl | ⟨1, _⟩ => rfl
theorem ridx_v10 (b : Fin 4096) (e : Fin 64) (n : Fin 1000) : ridx_main_v10 (ix2 b e) n = ix2 n e := funext fun a => match a with | ⟨0, _⟩ => rfl | ⟨1, _⟩ => rfl
theorem idx_v11 (b : Fin 4096) (e : Fin 64) : idx_main_v11 (ix1 b) e = ix2 b e := funext fun a => match a with | ⟨0, _⟩ => rfl | ⟨1, _⟩ => rfl
theorem idx_v12 (e : Fin 64) (j : Fin 128) : idx_main_v12 (ix2 e j) = ix2 j e := funext fun a => match a with | ⟨0, _⟩ => rfl | ⟨1, _⟩ => rfl
theorem lidx_v13 (b : Fin 4096) (j : Fin 128) (e : Fin 64) : lidx_main_v13 (ix2 b j) e = ix2 b e := funext fun a => match a with | ⟨0, _⟩ => rfl | ⟨1, _⟩ => rfl
theorem ridx_v13 (b : Fin 4096) (j : Fin 128) (e : Fin 64) : ridx_main_v13 (ix2 b j) e = ix2 e j := funext fun a => match a with | ⟨0, _⟩ => rfl | ⟨1, _⟩ => rfl
theorem idx_v15 (b : Fin 4096) (j : Fin 128) : idx_main_v14 (idx_main_v15 (ix2 b j)) = ix1 j := funext fun a => match a with | ⟨0, _⟩ => rfl
theorem idx_v18 (j : Fin 128) (k : Fin 64) : idx_main_v18 (ix2 j k) = ix2 k j := funext fun a => match a with | ⟨0, _⟩ => rfl | ⟨1, _⟩ => rfl
theorem lidx_v19 (b : Fin 4096) (k : Fin 64) (j : Fin 128) : lidx_main_v19 (ix2 b k) j = ix2 b j := funext fun a => match a with | ⟨0, _⟩ => rfl | ⟨1, _⟩ => rfl
theorem ridx_v19 (b : Fin 4096) (k : Fin 64) (j : Fin 128) : ridx_main_v19 (ix2 b k) j = ix2 j k := funext fun a => match a with | ⟨0, _⟩ => rfl | ⟨1, _⟩ => rfl
theorem idx_v21 (b : Fin 4096) (k : Fin 64) : idx_main_v20 (idx_main_v21 (ix2 b k)) = ix1 k := funext fun a => match a with | ⟨0, _⟩ => rfl
theorem idx_v24 (k : Fin 64) (z : Fin 1) : idx_main_v24 (ix2 k z) = ix2 z k := funext fun a => match a with | ⟨0, _⟩ => rfl | ⟨1, _⟩ => rfl
theorem lidx_v25 (b : Fin 4096) (z : Fin 1) (k : Fin 64) : lidx_main_v25 (ix2 b z) k = ix2 b k := funext fun a => match a with | ⟨0, _⟩ => rfl | ⟨1, _⟩ => rfl
theorem ridx_v25 (b : Fin 4096) (z : Fin 1) (k : Fin 64) : ridx_main_v25 (ix2 b z) k = ix2 k z := funext fun a => match a with | ⟨0, _⟩ => rfl | ⟨1, _⟩ => rfl
theorem idx_v3 (b : Fin 4096) (z : Fin 1) : idx_main_v2 (idx_main_v3 (ix2 b z)) = ix1 (0 : Fin 1) := funext fun a => match a with | ⟨0, _⟩ => rfl
theorem idx_v27 (b : Fin 4096) (z : Fin 1) : idx_main_v26 (idx_main_v27 (ix2 b z)) = ix1 (0 : Fin 1) := funext fun a => match a with | ⟨0, _⟩ => rfl
theorem idx_v30 (b : Fin 4096) (z : Fin 1) : idx_main_v30 (ix2 b z) = ix1 b := funext fun a => match a with | ⟨0, _⟩ => rfl
theorem idx_v45 (b : Fin 4096) : idx_main_v45 (ix1 b) = ix2 b (0 : Fin 1) :=
  funext fun a => match a with | ⟨0, _⟩ => Fin.ext (Nat.div_one _) | ⟨1, _⟩ => rfl

/-! ## The stages -/

/-- The embedding of sample b. -/
theorem emb_apply (b : Fin 4096) (e : Fin 64) :
    val_main_v5 (F := Ideal) x0 x3 (ix2 b e)
      = Dfm.emb (fun n : Fin 1000 => x0 (ix2 b n)) (fun n (e : Fin 64) => x3 (ix2 n e)) e := by
  rw [val_main_v5_apply]
  exact Finset.sum_congr rfl fun n _ => by rw [lidx_v5, ridx_v5]

/-- The sum of the embedding's coordinates. -/
theorem embsum_apply (b : Fin 4096) :
    val_main_v6 (F := Ideal) x0 x3 (ix1 b)
      = ∑ e : Fin 64, Dfm.emb (fun n : Fin 1000 => x0 (ix2 b n)) (fun n (e : Fin 64) => x3 (ix2 n e)) e := by
  rw [val_main_v6_apply]
  show Ideal.ofBits .f32 0x00000000#32 + _ = _
  rw [Ideal.ofBits_zero_f32, zero_add]
  exact Finset.sum_congr rfl fun e _ => by rw [idx_v6, emb_apply]

/-- The squared sample against the squared table, summed over the embedding. -/
theorem sqsum_apply (b : Fin 4096) :
    val_main_v11 (F := Ideal) x0 x3 (ix1 b)
      = ∑ e : Fin 64, ∑ n : Fin 1000, (x0 (ix2 b n) * x0 (ix2 b n)) * (x3 (ix2 n e) * x3 (ix2 n e)) := by
  rw [val_main_v11_apply]
  show Ideal.ofBits .f32 0x00000000#32 + _ = _
  rw [Ideal.ofBits_zero_f32, zero_add]
  refine Finset.sum_congr rfl fun e _ => ?_
  rw [idx_v11, val_main_v10_apply]
  exact Finset.sum_congr rfl fun n _ => by rw [lidx_v10, ridx_v10]; rfl

/-- The linear term of sample b. -/
theorem linear_apply (b : Fin 4096) (z : Fin 1) :
    val_main_v1 (F := Ideal) x0 x1 (ix2 b z) = ∑ n : Fin 1000, x0 (ix2 b n) * x1 (ix2 z n) := by
  rw [val_main_v1_apply]
  exact Finset.sum_congr rfl fun n _ => by rw [lidx_v1, ridx_v1, val_main_v0_apply, idx_v0]

/-- The linear bias, spread over the samples. -/
theorem blin_apply (b : Fin 4096) (z : Fin 1) : val_main_v3 (F := Ideal) x2 (ix2 b z) = x2 (ix1 (0 : Fin 1)) := by
  rw [val_main_v3_apply, val_main_v2_apply, idx_v3]

/-- The last bias, spread over the samples. -/
theorem b3_apply (b : Fin 4096) (z : Fin 1) : val_main_v27 (F := Ideal) x9 (ix2 b z) = x9 (ix1 (0 : Fin 1)) := by
  rw [val_main_v27_apply, val_main_v26_apply, idx_v27]

/-- The first hidden layer at sample b, unit j. -/
theorem hidden1_apply (b : Fin 4096) (j : Fin 128) :
    val_main_v17 (F := Ideal) x0 x3 x4 x5 (ix2 b j)
      = max ((∑ e : Fin 64, Dfm.emb (fun n : Fin 1000 => x0 (ix2 b n)) (fun n (e : Fin 64) => x3 (ix2 n e)) e * x4 (ix2 j e))
            + x5 (ix1 j)) (Ideal.ofBits .f32 0x00000000#32) := by
  rw [val_main_v17_apply, val_main_v16_apply, val_main_v13_apply, val_main_v15_apply, val_main_v14_apply, idx_v15,
    val_main_call0_v0_apply, val_main_call0_cst_apply]
  show max ((_ : EReal) + _) (Ideal.ofBits .f32 0x00000000#32) = _
  refine congrArg (fun s => max (s + x5 (ix1 j)) (Ideal.ofBits .f32 0x00000000#32)) ?_
  exact Finset.sum_congr rfl fun e _ => by rw [lidx_v13, ridx_v13, emb_apply, val_main_v12_apply, idx_v12]

/-- The second hidden layer at sample b, unit k. -/
theorem hidden2_apply (b : Fin 4096) (k : Fin 64) :
    val_main_v23 (F := Ideal) x0 x3 x4 x5 x6 x7 (ix2 b k)
      = max ((∑ j : Fin 128, val_main_v17 (F := Ideal) x0 x3 x4 x5 (ix2 b j) * x6 (ix2 k j)) + x7 (ix1 k))
          (Ideal.ofBits .f32 0x00000000#32) := by
  rw [val_main_v23_apply, val_main_v22_apply, val_main_v19_apply, val_main_v21_apply, val_main_v20_apply, idx_v21,
    val_main_call1_v0_apply, val_main_call1_cst_apply]
  show max ((_ : EReal) + _) (Ideal.ofBits .f32 0x00000000#32) = _
  refine congrArg (fun s => max (s + x7 (ix1 k)) (Ideal.ofBits .f32 0x00000000#32)) ?_
  exact Finset.sum_congr rfl fun j _ => by rw [lidx_v19, ridx_v19, val_main_v18_apply, idx_v18]

/-- The deep branch of sample b. -/
theorem deep_apply (b : Fin 4096) (z : Fin 1) :
    val_main_v25 (F := Ideal) x0 x3 x4 x5 x6 x7 x8 (ix2 b z)
      = Dfm.deep (Ideal.ofBits .f32 0x00000000#32)
          (Dfm.emb (fun n : Fin 1000 => x0 (ix2 b n)) (fun n (e : Fin 64) => x3 (ix2 n e)))
          (fun (j : Fin 128) e => x4 (ix2 j e)) (fun j => x5 (ix1 j)) (fun (k : Fin 64) j => x6 (ix2 k j))
          (fun k => x7 (ix1 k)) (fun k => x8 (ix2 z k)) := by
  rw [val_main_v25_apply]
  unfold Dfm.deep
  refine Finset.sum_congr rfl fun k _ => ?_
  rw [lidx_v25, ridx_v25, val_main_v24_apply, idx_v24, hidden2_apply]
  refine congrArg (fun s => max (s + x7 (ix1 k)) (Ideal.ofBits .f32 0x00000000#32) * x8 (ix2 z k)) ?_
  exact Finset.sum_congr rfl fun j _ => by rw [hidden1_apply]

end Cert.ReferenceIdeal.RefRead

end
-- ==== Proof.RefScore.lean ====
/-
  The reference's result at a sample.

  After its stages the reference adds the linear term with its bias, half the second-order term and the deep branch
  with its bias, and applies ½ + σ(z) · 5 with the logistic function spelled out as 1 / (1 + exp (−z)) in host
  operations. On the extended reals that spelling is the logistic function itself (the literal 1.0 denotes 1), so the
  result at sample b is Dfm.predEmbsum of the sample's row and the parameters.
-/
import proofs.«175416_g84026740179138_cont_9to1c4b_688_3_alg».proof.Proof.RefParts

noncomputable section

namespace Cert.ReferenceIdeal.RefRead

open Idealize.ShloMosaic Idealize.ShloMosaic.ValueIdx Cert.ReferenceIdeal Cert.ReferenceIdeal.Gen Cert.ReferenceIdeal.Read

/-- The literal 1.0 denotes the extended real 1: sign 0, biased exponent 127, zero fraction. -/
theorem one_word : Ideal.ofBits .f32 0x3F800000#32 = 1 := by
  simp [Ideal.ofBits, Ideal.ieee, -EReal.coe_mul]
  norm_num

variable (x0 : (⟨S4096x1000, .f32⟩ : BufTy).Contents (Elt Ideal)) (x1 : (⟨S1x1000, .f32⟩ : BufTy).Contents (Elt Ideal)) (x2 : (⟨S1, .f32⟩ : BufTy).Contents (Elt Ideal)) (x3 : (⟨S1000x64, .f32⟩ : BufTy).Contents (Elt Ideal))
  (x4 : (⟨S128x64, .f32⟩ : BufTy).Contents (Elt Ideal)) (x5 : (⟨S128, .f32⟩ : BufTy).Contents (Elt Ideal)) (x6 : (⟨S64x128, .f32⟩ : BufTy).Contents (Elt Ideal)) (x7 : (⟨S64, .f32⟩ : BufTy).Contents (Elt Ideal))
  (x8 : (⟨S1x64, .f32⟩ : BufTy).Contents (Elt Ideal)) (x9 : (⟨S1, .f32⟩ : BufTy).Contents (Elt Ideal))

/-- The reference's score at sample b: the arrangement with the embedding coordinates summed last. -/
theorem score_apply (b : Fin 4096) :
    val_main_v34 (F := Ideal) x0 x1 x2 x3 x4 x5 x6 x7 x8 x9 (ix2 b (0 : Fin 1))
      = Dfm.scoreEmbsum (Ideal.ofBits .f32 0x3F000000#32) (fun n : Fin 1000 => x0 (ix2 b n))
          (fun n => x1 (ix2 (0 : Fin 1) n)) (x2 (ix1 (0 : Fin 1))) (fun n (e : Fin 64) => x3 (ix2 n e))
          (Dfm.deep (Ideal.ofBits .f32 0x00000000#32)
            (Dfm.emb (fun n : Fin 1000 => x0 (ix2 b n)) (fun n (e : Fin 64) => x3 (ix2 n e)))
            (fun (j : Fin 128) e => x4 (ix2 j e)) (fun j => x5 (ix1 j)) (fun (k : Fin 64) j => x6 (ix2 k j))
            (fun k => x7 (ix1 k)) (fun k => x8 (ix2 (0 : Fin 1) k)))
          (x9 (ix1 (0 : Fin 1))) := by
  rw [val_main_v34_apply, val_main_v33_apply, val_main_v4_apply, val_main_v32_apply, val_main_v31_apply,
    val_main_cst_1_apply, val_main_v30_apply, idx_v30, val_main_v29_apply, val_main_v7_apply, val_main_v28_apply,
    linear_apply, blin_apply, embsum_apply, sqsum_apply, deep_apply, b3_apply]
  rfl

/-- The reference's result at sample b. -/
theorem result_apply (b : Fin 4096) :
    val_main_v45 (F := Ideal) x0 x1 x2 x3 x4 x5 x6 x7 x8 x9 (ix1 b)
      = Dfm.predEmbsum (Ideal.ofBits .f32 0x00000000#32) (Ideal.ofBits .f32 0x3F000000#32) (Ideal.ofBits .f32 0x40A00000#32)
          (fun n : Fin 1000 => x0 (ix2 b n)) (fun n => x1 (ix2 (0 : Fin 1) n)) (x2 (ix1 (0 : Fin 1)))
          (fun n (e : Fin 64) => x3 (ix2 n e)) (fun (j : Fin 128) e => x4 (ix2 j e)) (fun j => x5 (ix1 j))
          (fun (k : Fin 64) j => x6 (ix2 k j)) (fun k => x7 (ix1 k)) (fun k => x8 (ix2 (0 : Fin 1) k))
          (x9 (ix1 (0 : Fin 1))) := by
  rw [val_main_v45_apply, idx_v45, val_main_v44_apply, val_main_v43_apply, val_main_cst_5_apply, val_main_v42_apply,
    val_main_v41_apply, val_main_cst_4_apply, val_main_v40_apply, val_main_v39_apply, val_main_cst_3_apply,
    val_main_v38_apply, val_main_v37_apply, val_main_cst_2_apply, val_main_v36_apply, val_main_v35_apply, score_apply]
  unfold Dfm.predEmbsum Dfm.squash Ideal.logistic
  show Ideal.ofBits .f32 0x3F000000#32
      + Ideal.div (Ideal.ofBits .f32 0x3F800000#32) (Ideal.ofBits .f32 0x3F800000#32 + Ideal.exp (-_))
        * Ideal.ofBits .f32 0x40A00000#32 = _
  rw [one_word]

end Cert.ReferenceIdeal.RefRead

end
-- ==== Proof.Finite.lean ====
/-
  Finite inputs are real entries.

  The precondition is the conjunction, over the ten arguments, of "every entry has absolute value below +∞", each
  conjunct a reduction by "and" of an elementwise comparison. An extended real x with max (x, −x) < ⊤ is neither
  infinity, so it is a real number. Only the sample array and the embedding table are needed by the algebra, so only
  their two conjuncts are opened: the first and the fourth of the left-nested chain of ten.
-/
import proofs.«175416_g84026740179138_cont_9to1c4b_688_3_alg».proof.Pre_finite_inputs
import proofs.«175416_g84026740179138_cont_9to1c4b_688_3_alg».proof.Proof.Gen.Pre_finite_inputs
import proofs.«175416_g84026740179138_cont_9to1c4b_688_3_alg».proof.Proof.LibRealEntries
import Idealize.ShloMosaic.Lib.ReduceAll
import Idealize.ShloMosaic.Lib.Affine
import Idealize.ShloMosaic.Lib.ValueIdx
import Idealize.ShloMosaic.Lib.Pipeline.Value

noncomputable section

namespace Cert.Finite

open Idealize.ShloMosaic RealEntries Cert.Pre_finite_inputs Cert.Pre_finite_inputs.Gen

instance : Subsingleton S_.Idx := ⟨fun a b => funext fun d => d.elim0⟩

/-- The literal 0x7F800000 denotes +∞. -/
theorem inf_word : Ideal.ofBits .f32 0x7F800000#32 = ⊤ := by
  simp [Ideal.ofBits, Ideal.ieee]

/-- An extended real whose absolute value compares below +∞ is a real number. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact ⟨r, rfl⟩
  | top => simp [Ideal.cmp] at h

/-- One conjunct of the precondition, opened: if the "and" over all entries of |x| < +∞ is true, every entry is real. -/
theorem all_real {s : Shape} {axes : List (Fin s.rank)} (x : FVec Ideal s .f32) (hb : S_.BroadcastsInDim s (![] : Fin 0 → Fin s.rank))
    (h : s.ReducesTo axes S_) (hu : 0 < S_.numel)
    (e : Host.reduce IntOp.andi
        (cmpf .olt (Host.absf x) (broadcastInDim s ![] hb (constant (F := Ideal) S_ .f32 0x7F800000#32)))
        (constantI S_ 1 1#1) h hu ValueIdx.ix0 = 1#1) (i : s.Idx) : IsReal (x i) := by
  have hi := Host.reduce_andi_all _ _ h hu ValueIdx.ix0 e i
  refine isReal_of_abs_lt (x i) ?_
  have hc : broadcastInDim s ![] hb (constant (F := Ideal) S_ .f32 0x7F800000#32) i = Ideal.ofBits .f32 0x7F800000#32 :=
    broadcastInDim_apply _ hb _ i (fun a => a.elim0) (fun a => a.elim0)
  have : Ideal.cmp .olt (max (x i) (-(x i)))
      (broadcastInDim s ![] hb (constant (F := Ideal) S_ .f32 0x7F800000#32) i) = 1#1 := hi
  rw [hc] at this
  exact this

/-- Under the precondition every entry of the sample array and of the embedding table is real. -/
theorem real_of_pre (a0 : FVec Ideal S4096x1000 .f32) (a1 : FVec Ideal S1x1000 .f32) (a2 : FVec Ideal S1 .f32)
    (a3 : FVec Ideal S1000x64 .f32) (a4 : FVec Ideal S128x64 .f32) (a5 : FVec Ideal S128 .f32)
    (a6 : FVec Ideal S64x128 .f32) (a7 : FVec Ideal S64 .f32) (a8 : FVec Ideal S1x64 .f32) (a9 : FVec Ideal S1 .f32)
    (h : fn (F := Ideal) a0 a1 a2 a3 a4 a5 a6 a7 a8 a9 = fun _ => 1#1) :
    (∀ i, IsReal (a0 i)) ∧ (∀ i, IsReal (a3 i)) := by
  have h0 := congrFun h ValueIdx.ix0
  dsimp only [fn, fn_part1, fn_part2, andi] at h0
  simp only [IntOp.andi_eq_one] at h0
  obtain ⟨⟨⟨⟨⟨⟨⟨⟨⟨hX, -⟩, -⟩, hF⟩, -⟩, -⟩, -⟩, -⟩, -⟩, -⟩ := h0
  exact ⟨all_real a0 _ _ _ hX, all_real a3 _ _ _ hF⟩

end Cert.Finite

end
-- ==== Proof.lean ====
/-
  The certificate of a fused DeepFM forward pass against its jnp reference, over the extended reals.

  Both programs compute, for each of 4096 samples x (1000 features), with an embedding table f (1000 × 64), a linear
  layer and a three-layer perceptron on the sample's embedding x · f:

      ½ + logistic( x · wlᵀ + b_lin + ½ · ((Σ_e (x · f)_e)² − Σ_e (x² · f²)_e) + deep(x · f) + b₃ ) · 5.

  The kernel processes 512 samples per grid point and avoids two of the reference's wide products: since x_n does not
  depend on the embedding coordinate, Σ_e Σ_n x_n f_{n,e} = Σ_n x_n (Σ_e f_{n,e}), and likewise with squares, so it
  appends the table's row sums (and the linear weights) to the table as extra columns of ONE product, and multiplies the
  squared samples with the row sums of the squared table. That exchange is distributivity of a real factor over a
  finite sum — valid on the extended reals because the precondition makes every entry of x and f a real number
  (module LibFmLaw; module Finite reads the precondition). The kernel also adds the two biases one at a time where the
  reference adds deep + b₃ first (associativity), and uses the logistic operation where the reference spells
  1 / (1 + exp (−z)) (one function on the extended reals). Everything else is the same sums in the same order:
    • the kernel's tile read at a sample (modules TileWide, TileDeep, TileScore), its eight blocks assembled into the
      result column and the reshape that follows the region (KernelArray, KernelRun);
    • the reference read stage by stage at a sample (RefParts, RefScore).
  The three frames are the generated ones; the idealization rewrote nothing, so its claim is trivial.
-/
import proofs.«175416_g84026740179138_cont_9to1c4b_688_3_alg».proof.Defs
import proofs.«175416_g84026740179138_cont_9to1c4b_688_3_alg».proof.Proof.Gen.Kernel
import proofs.«175416_g84026740179138_cont_9to1c4b_688_3_alg».proof.Proof.Gen.Kernel.Skeleton
import proofs.«175416_g84026740179138_cont_9to1c4b_688_3_alg».proof.Proof.Gen.Kernel.Launch
import proofs.«175416_g84026740179138_cont_9to1c4b_688_3_alg».proof.Proof.Gen.Kernel.Points
import proofs.«175416_g84026740179138_cont_9to1c4b_688_3_alg».proof.Proof.Gen.Kernel.Frame
import proofs.«175416_g84026740179138_cont_9to1c4b_688_3_alg».proof.Proof.Gen.KernelIdeal
import proofs.«175416_g84026740179138_cont_9to1c4b_688_3_alg».proof.Proof.Gen.KernelIdeal.Skeleton
import proofs.«175416_g84026740179138_cont_9to1c4b_688_3_alg».proof.Proof.Gen.KernelIdeal.Launch
import proofs.«175416_g84026740179138_cont_9to1c4b_688_3_alg».proof.Proof.Gen.KernelIdeal.Points
import proofs.«175416_g84026740179138_cont_9to1c4b_688_3_alg».proof.Proof.Gen.KernelIdeal.Frame
import proofs.«175416_g84026740179138_cont_9to1c4b_688_3_alg».proof.Proof.Gen.ReferenceIdeal
import proofs.«175416_g84026740179138_cont_9to1c4b_688_3_alg».proof.Proof.Gen.Pre_finite_inputs
import proofs.«175416_g84026740179138_cont_9to1c4b_688_3_alg».proof.Proof.Gen.ReferenceIdeal.Run
import proofs.«175416_g84026740179138_cont_9to1c4b_688_3_alg».proof.Proof.Gen.ReferenceIdeal.Read
import proofs.«175416_g84026740179138_cont_9to1c4b_688_3_alg».proof.Proof.KernelRun
import proofs.«175416_g84026740179138_cont_9to1c4b_688_3_alg».proof.Proof.RefScore
import proofs.«175416_g84026740179138_cont_9to1c4b_688_3_alg».proof.Proof.Finite
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both results at sample b are the prediction of sample b: the kernel's with each feature's embedding summed first,
    the reference's with the embedding coordinates summed last, equal because the samples and the table are real. -/
theorem algebraic : Cert.algebraic_KernelIdeal_ReferenceIdeal := by
  intro m ρ m' ρ' hpre hagree
  refine ⟨fun c => shapeCast Cert.KernelIdeal.S4096 (Cert.KernelIdeal.Whole.column m c) Cert.KernelIdeal.Facts₀.shapeCasts_S4096x1_S4096,
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hF⟩ := Cert.Finite.real_of_pre _ _ _ _ _ _ _ _ _ _ (hpre c)
  obtain ⟨e0, e1, e2, e3, e4, e5, e6, e7, e8, e9⟩ := hagree c
  rw [Cert.ReferenceIdeal.Read.val_main_v45_eq, e0, e1, e2, e3, e4, e5, e6, e7, e8, e9]
  funext i
  obtain ⟨b, rfl⟩ : ∃ b : Fin 4096, i = ix1 b := ⟨i 0, eq_ix1 i⟩
  rw [Cert.ReferenceIdeal.RefRead.result_apply]
  refine Eq.trans ?_ (Cert.KernelIdeal.Whole.result_apply m c b).symm
  exact (Dfm.predRowsum_eq_predEmbsum _ _ _ _ _ _ _ _ _ _ _ _ _ (fun n => hX (ix2 b n)) (fun n e => hF (ix2 n e))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
